-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x32 : Shape := ⟨2, ![600000, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x32 : S_.BroadcastsInDim S600000x32 (![] : Fin 0 → Fin S600000x32.rank)
  reducesTo_S600000x32_S_d0_1 : S600000x32.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S600000x32 .f32) (main_arg3 : FVec F S288x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x32 .f32 := Host.absf main_arg2
  let main_cst_0 : FVec F S_ .f32 := constant S_ .f32 0x7F800000#32
  let main_v5 : FVec F S600000x32 .f32 := broadcastInDim S600000x32 ![] bcast_S_S600000x32 main_cst_0
  let main_v6 : IVec S600000x32 1 := cmpf .olt main_v4 main_v5
  let main_c_1 : IVec S_ 1 := constantI S_ 1 1#1
  let main_v7 : IVec S_ 1 := (fun x v => Host.reduce IntOp.andi x v reducesTo_S600000x32_S_d0_1 h_S_) main_v6 main_c_1
  let main_v8 : IVec S_ 1 := andi main_v3 main_v7
  let main_v9 : FVec F S288x128 .f32 := Host.absf main_arg3
  let main_cst_2 : FVec F S_ .f32 := constant S_ .f32 0x7F800000#32
  let main_v10 : FVec F S288x128 .f32 := broadcastInDim S288x128 ![] bcast_S_S288x128 main_cst_2
  let main_v11 : IVec S288x128 1 := cmpf .olt main_v9 main_v10
  let main_c_3 : IVec S_ 1 := constantI S_ 1 1#1
  let main_v12 : IVec S_ 1 := (fun x v => Host.reduce IntOp.andi x v reducesTo_S288x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S600000x32 : Shape := ⟨2, ![600000, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S32x128 : Shape := ⟨2, ![32, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S8000x128 : Shape := ⟨2, ![8000, 128]⟩
abbrev S8000x32 : Shape := ⟨2, ![8000, 32]⟩
abbrev S5000x128 : Shape := ⟨2, ![5000, 128]⟩

abbrev nBuf : Space → Nat
  | .hbm => 61
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x32, .f32⟩
  | .hbm, ⟨3, _⟩ => ⟨S288x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S50000x128, .bf16⟩
  | .hbm, ⟨16, _⟩ => ⟨S128x128, .f32⟩
  | .hbm, ⟨17, _⟩ => ⟨S128x128, .bf16⟩
  | .hbm, ⟨18, _⟩ => ⟨S128x128, .f32⟩
  | .hbm, ⟨19, _⟩ => ⟨S128x128, .bf16⟩
  | .hbm, ⟨20, _⟩ => ⟨S32x128, .f32⟩
  | .hbm, ⟨21, _⟩ => ⟨S32x128, .bf16⟩
  | .hbm, ⟨22, _⟩ => ⟨S128x128, .bf16⟩
  | .hbm, ⟨23, _⟩ => ⟨S1x128, .f32⟩
  | .hbm, ⟨24, _⟩ => ⟨S1x128, .f32⟩
  | .hbm, ⟨25, _⟩ => ⟨S50000x128, .f32⟩
  | .hbm, ⟨26, _⟩ => ⟨S50000x128, .bf16⟩
  | .hbm, ⟨27, _⟩ => ⟨S50000x128, .f32⟩
  | .hbm, ⟨28, _⟩ => ⟨S50000x128, .bf16⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .bf16⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .bf16⟩
  | .hbm, ⟨47, _⟩ => ⟨S600000x32, .bf16⟩
  | .hbm, ⟨48, _⟩ => ⟨S600000x128, .f32⟩
  | .hbm, ⟨49, _⟩ => ⟨S_, .f32⟩
  | .hbm, ⟨50, _⟩ => ⟨S50000x128, .f32⟩
  | .hbm, ⟨51, _⟩ => ⟨S600000x1, .i32⟩
  | .hbm, ⟨52, _⟩ => ⟨S50000x128, .f32⟩
  | .hbm, ⟨53, _⟩ => ⟨S128x128, .f32⟩
  | .hbm, ⟨54, _⟩ => ⟨S128x128, .bf16⟩
  | .hbm, ⟨55, _⟩ => ⟨S128x128, .f32⟩
  | .hbm, ⟨56, _⟩ => ⟨S128x128, .bf16⟩
  | .hbm, ⟨57, _⟩ => ⟨S128x128, .bf16⟩
  | .hbm, ⟨58, _⟩ => ⟨S1x128, .f32⟩
  | .hbm, ⟨59, _⟩ => ⟨S1x128, .f32⟩
  | .hbm, ⟨60, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S8000x32, .bf16⟩
  | .local _ .vmem, ⟨5, _⟩ => ⟨S8000x32, .bf16⟩
  | .local _ .vmem, ⟨6, _⟩ => ⟨S32x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S5000x128, .bf16⟩
  | .local _ .vmem, ⟨13, _⟩ => ⟨S5000x128, .bf16⟩
  | .local _ .vmem, ⟨14, _⟩ => ⟨S5000x128, .f32⟩
  | .local _ .vmem, ⟨15, _⟩ => ⟨S5000x128, .f32⟩
  | .local _ .vmem, ⟨16, _⟩ => ⟨S128x128, .bf16⟩
  | .local _ .vmem, ⟨17, _⟩ => ⟨S128x128, .bf16⟩
  | .local _ .vmem, ⟨18, _⟩ => ⟨S1x128, .f32⟩
  | .local _ .vmem, ⟨19, _⟩ => ⟨S128x128, .bf16⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_1 : Ref sig .tc := ⟨.hbm, 38, rfl⟩
abbrev main_v25 : Ref sig .tc := ⟨.hbm, 39, rfl⟩
abbrev main_v26 : Ref sig .tc := ⟨.hbm, 40, rfl⟩
abbrev main_c_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  slices_S288x128_S128x128_0_0 : S288x128.Slices ![0, 0] S128x128
  slices_S288x128_S128x128_128_0 : S288x128.Slices ![128, 0] S128x128
  slices_S288x128_S32x128_256_0 : S288x128.Slices ![256, 0] S32x128
  shapeCasts_S128_S1x128 : S128.ShapeCasts S1x128
  bcast_S_S600000 : S_.BroadcastsInDim S600000 (![] : Fin 0 → Fin S600000.rank)
  bcast_S600000_S600000x1_0 : S600000.BroadcastsInDim S600000x1 (![0] : Fin 1 → Fin S600000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  dot_S8000x32_S32x128_S8000x128_1_0_0_1_n_n_wf : DotDims.WF S8000x32 S32x128 S8000x128 [1] [0] [0] [1] [] []
  dot_S8000x128_S128x128_S8000x128_1_0_0_1_n_n_wf : DotDims.WF S8000x128 S128x128 S8000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S600000x128.size a
  hwx0_0 : ∀ i : grid0.Coords, EltTy.bits .bf16 = 32 ∨ (Rect.block (s := S600000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S600000x128.size a
  hwx0_1 : ∀ i : grid0.Coords, EltTy.bits .bf16 = 32 ∨ (Rect.block (s := S600000x128) S8000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S600000x32.size a
  hwx0_2 : ∀ i : grid0.Coords, EltTy.bits .bf16 = 32 ∨ (Rect.block (s := S600000x32) S8000x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .bf16 = 32 ∨ (Rect.block (s := S32x128) S32x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S600000x128.size a
  hwx0_7 : ∀ i : grid0.Coords, EltTy.bits .f32 = 32 ∨ (Rect.block (s := S600000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x32 : Shape := ⟨2, ![600000, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x288 : Shape := ⟨2, ![600000, 288]⟩
abbrev S1x128 : Shape := ⟨2, ![1, 128]⟩
abbrev S50000x256 : Shape := ⟨2, ![50000, 256]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x32, .f32⟩
  | .hbm, ⟨3, _⟩ => ⟨S288x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x288, .f32⟩
  | .hbm, ⟨34, _⟩ => ⟨S600000x128, .f32⟩
  | .hbm, ⟨35, _⟩ => ⟨S1x128, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x256, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x32_S600000x288_d1 : Shape.Concatenates [S600000x128, S600000x128, S600000x32] S600000x288 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x288_S288x128_S600000x128_1_0_0_1_n_n_wf : DotDims.WF S600000x288 S288x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x288_S288x128_S600000x128_1_0_0_1_n_n : DotDims S600000x288 S288x128 S600000x128 where
  lhsContracting := [1]
  rhsContracting := [0]
  lhsNonContracting := [0]
  rhsNonContracting := [1]
  lhsBatch := []
  rhsBatch := []
  wf := dot_S600000x288_S288x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  @main is four segments: the host operations before the edge kernel, the edge kernel's pipeline, the host
  operations between the two kernels, the node kernel's pipeline. The run leaves every unscoped buffer of a core at
  the last boundary's contents `W4`: the launch memory folded through the first stretch, the edge pipeline's
  write-backs, the second stretch and the node pipeline's write-backs. Read at the result buffer, which is the node
  pipeline's output array, that is the array the node pipeline leaves; read at an argument it is the launch memory.
-/
import proofs.«115804_j85993835200698_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the node pipeline's output array, so at the last boundary it holds what that pipeline's
    write-backs leave. -/
theorem W4_result (c : Dev nD) :
    W4 m ρ c (Proc.devRef .tc main_v44) = (dat1 (V3 m ρ) c).arrAt 7 cfg1.N := W4_arr m ρ c 7

set_option backward.isDefEq.respectTransparency.types false in
/-- Every weakly fair execution of @main terminates without a fault, with the result buffer at the last boundary's
    contents and the eleven argument arrays as launched. -/
theorem run_named : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Hand

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.Products.lean ====
/-
  The kernel's matrix products read at an entry.

  Every product of this kernel is plain: rows × contraction times contraction × columns, no batch axis. At the
  output entry (p, c) and the contraction coordinate k the operands are read at (p, k) and (k, c), so the product's
  entry is the sum over k of left (p, k) times right (k, c) — for a product into a zero accumulator on the vector
  unit and for the host's product alike. The general statement takes the two facts that depend on how a dimension
  record spells its lists (the left operand's row is the output's row, the right operand's column the output's
  column); they are then decided for the four records the kernel uses.
-/
import proofs.«115804_j85993835200698_2_alg».proof.Proof.Gen.KernelIdeal
import proofs.«115804_j85993835200698_2_alg».proof.Proof.LibPlainDot
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The operand indices of a plain product at the output entry `(p, c)`: `(p, k)` on the left and `(k, c)` on the
    right, `k` the contraction index's one coordinate. -/
theorem plain_operands {R K C : ℕ} (d : DotDims ⟨2, ![R, K]⟩ ⟨2, ![K, C]⟩ ⟨2, ![R, C]⟩)
    (hlc : d.lhsContracting = [1]) (hrc : d.rhsContracting = [0])
    (hrk : d.contr.rank = 1) (hs : d.contr.size ⟨0, by omega⟩ = K)
    (hl0 : ∀ (j : (⟨2, ![R, C]⟩ : Shape).Idx) (q : d.contr.Idx), (d.lhsIdx j q 0).val = (j 0).val)
    (hr1 : ∀ (j : (⟨2, ![R, C]⟩ : Shape).Idx) (q : d.contr.Idx), (d.rhsIdx j q 1).val = (j 1).val)
    (p : Fin R) (c : Fin C) :
    (∀ q : d.contr.Idx, d.lhsIdx (ix2 p c) q = ix2 p (contrEquiv1 d K hrk hs q))
    ∧ (∀ q : d.contr.Idx, d.rhsIdx (ix2 p c) q = ix2 (contrEquiv1 d K hrk hs q) c) := by
  refine ⟨fun q => funext fun a => Fin.ext ?_, fun q => funext fun a => Fin.ext ?_⟩
  · match a with
    | ⟨0, _⟩ => exact hl0 _ q
    | ⟨1, _⟩ => exact d.lhsIdx_val_of_single hlc _ q
  · match a with
    | ⟨0, _⟩ => exact d.rhsIdx_val_of_single hrc _ q
    | ⟨1, _⟩ => exact hr1 _ q

/-- A plain product into a zero accumulator, at the exact instance, at the entry `(p, c)`. -/
theorem plain_matmul {R K C : ℕ} {φ₁ φ₂ : FTy} (d : DotDims ⟨2, ![R, K]⟩ ⟨2, ![K, C]⟩ ⟨2, ![R, C]⟩)
    (prec : Option ContractPrecision)
    (hlc : d.lhsContracting = [1]) (hrc : d.rhsContracting = [0])
    (hrk : d.contr.rank = 1) (hs : d.contr.size ⟨0, by omega⟩ = K)
    (hl0 : ∀ (j : (⟨2, ![R, C]⟩ : Shape).Idx) (q : d.contr.Idx), (d.lhsIdx j q 0).val = (j 0).val)
    (hr1 : ∀ (j : (⟨2, ![R, C]⟩ : Shape).Idx) (q : d.contr.Idx), (d.rhsIdx j q 1).val = (j 1).val)
    (l : FVec Ideal ⟨2, ![R, K]⟩ φ₁) (r : FVec Ideal ⟨2, ![K, C]⟩ φ₂) (p : Fin R) (c : Fin C) :
    FloatOps.matmul d prec l r (constant ⟨2, ![R, C]⟩ .f32 0x00000000#32) (ix2 p c)
      = ∑ k : Fin K, l (ix2 p k) * r (ix2 k c) :=
  LibPlainDot.matmul_zero_apply d prec K hrk hs l r (ix2 p c) (fun k => ix2 p k) (fun k => ix2 k c)
    (plain_operands d hlc hrc hrk hs hl0 hr1 p c).1 (plain_operands d hlc hrc hrk hs hl0 hr1 p c).2

/-- The host's plain product, at the exact instance, at the entry `(p, c)`. -/
theorem plain_dotGeneral {R K C : ℕ} {φ₁ φ₂ : FTy} (d : DotDims ⟨2, ![R, K]⟩ ⟨2, ![K, C]⟩ ⟨2, ![R, C]⟩)
    (prec : Option ContractPrecision) (sched : HostSchedule)
    (hlc : d.lhsContracting = [1]) (hrc : d.rhsContracting = [0])
    (hrk : d.contr.rank = 1) (hs : d.contr.size ⟨0, by omega⟩ = K)
    (hl0 : ∀ (j : (⟨2, ![R, C]⟩ : Shape).Idx) (q : d.contr.Idx), (d.lhsIdx j q 0).val = (j 0).val)
    (hr1 : ∀ (j : (⟨2, ![R, C]⟩ : Shape).Idx) (q : d.contr.Idx), (d.rhsIdx j q 1).val = (j 1).val)
    (l : FVec Ideal ⟨2, ![R, K]⟩ φ₁) (r : FVec Ideal ⟨2, ![K, C]⟩ φ₂) (p : Fin R) (c : Fin C) :
    FloatOps.dotGeneral d prec sched l r (ix2 p c) = ∑ k : Fin K, l (ix2 p k) * r (ix2 k c) :=
  LibPlainDot.dotGeneral_apply d prec sched K hrk hs l r (ix2 p c) (fun k => ix2 p k) (fun k => ix2 k c)
    (plain_operands d hlc hrc hrk hs hl0 hr1 p c).1 (plain_operands d hlc hrc hrk hs hl0 hr1 p c).2

/-! ## The edge kernel's first product: edge attributes [8000, 32] times the third block of the first weight -/

theorem edge_attr_lhs0 (j : S8000x128.Idx) (q : dot_S8000x32_S32x128_S8000x128_1_0_0_1_n_n.contr.Idx) :
    (dot_S8000x32_S32x128_S8000x128_1_0_0_1_n_n.lhsIdx j q 0).val = (j 0).val := by
  unfold DotDims.lhsIdx
  rw [dif_neg (show ¬(0 : Fin S8000x32.rank) ∈ dot_S8000x32_S32x128_S8000x128_1_0_0_1_n_n.lhsBatch by decide),
    dif_pos (show (0 : Fin S8000x32.rank) ∈ dot_S8000x32_S32x128_S8000x128_1_0_0_1_n_n.lhsNonContracting by decide)]
  rfl
theorem edge_attr_rhs1 (j : S8000x128.Idx) (q : dot_S8000x32_S32x128_S8000x128_1_0_0_1_n_n.contr.Idx) :
    (dot_S8000x32_S32x128_S8000x128_1_0_0_1_n_n.rhsIdx j q 1).val = (j 1).val := by
  unfold DotDims.rhsIdx
  rw [dif_neg (show ¬(1 : Fin S32x128.rank) ∈ dot_S8000x32_S32x128_S8000x128_1_0_0_1_n_n.rhsBatch by decide),
    dif_pos (show (1 : Fin S32x128.rank) ∈ dot_S8000x32_S32x128_S8000x128_1_0_0_1_n_n.rhsNonContracting by decide)]
  rfl
theorem edge_attr_matmul {φ₁ φ₂ : FTy} (l : FVec Ideal S8000x32 φ₁) (r : FVec Ideal S32x128 φ₂) (p : Fin 8000) (c : Fin 128) :
    matmul dot_S8000x32_S32x128_S8000x128_1_0_0_1_n_n none l r (constant S8000x128 .f32 0x00000000#32) (ix2 p c)
      = ∑ k : Fin 32, l (ix2 p k) * r (ix2 k c) :=
  plain_matmul dot_S8000x32_S32x128_S8000x128_1_0_0_1_n_n none rfl rfl rfl rfl edge_attr_lhs0 edge_attr_rhs1 l r p c

/-! ## The edge kernel's second product: the hidden rows [8000, 128] times the second weight -/

theorem edge_out_lhs0 (j : S8000x128.Idx) (q : dot_S8000x128_S128x128_S8000x128_1_0_0_1_n_n.contr.Idx) :
    (dot_S8000x128_S128x128_S8000x128_1_0_0_1_n_n.lhsIdx j q 0).val = (j 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl
theorem edge_out_rhs1 (j : S8000x128.Idx) (q : dot_S8000x128_S128x128_S8000x128_1_0_0_1_n_n.contr.Idx) :
    (dot_S8000x128_S128x128_S8000x128_1_0_0_1_n_n.rhsIdx j q 1).val = (j 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl
theorem edge_out_matmul {φ₁ φ₂ : FTy} (l : FVec Ideal S8000x128 φ₁) (r : FVec Ideal S128x128 φ₂) (p : Fin 8000) (c : Fin 128) :
    matmul dot_S8000x128_S128x128_S8000x128_1_0_0_1_n_n none l r (constant S8000x128 .f32 0x00000000#32) (ix2 p c)
      = ∑ k : Fin 128, l (ix2 p k) * r (ix2 k c) :=
  plain_matmul dot_S8000x128_S128x128_S8000x128_1_0_0_1_n_n none rfl rfl rfl rfl edge_out_lhs0 edge_out_rhs1 l r p c

/-! ## The node kernel's products: rows [5000, 128] times a [128, 128] weight -/

theorem node_lhs0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem node_rhs1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl
theorem node_matmul {φ₁ φ₂ : FTy} (l : FVec Ideal S5000x128 φ₁) (r : FVec Ideal S128x128 φ₂) (p : Fin 5000) (c : Fin 128) :
    matmul dot_S5000x128_S128x128_S5000x128_1_0_0_1_n_n none l r (constant S5000x128 .f32 0x00000000#32) (ix2 p c)
      = ∑ k : Fin 128, l (ix2 p k) * r (ix2 k c) :=
  plain_matmul dot_S5000x128_S128x128_S5000x128_1_0_0_1_n_n none rfl rfl rfl rfl node_lhs0 node_rhs1 l r p c

/-! ## The host's projections before the edge kernel: node features [50000, 128] times a [128, 128] block of the first weight -/

theorem proj_lhs0 (j : S50000x128.Idx) (q : dot_S50000x128_S128x128_S50000x128_1_0_0_1_n_n.contr.Idx) :
    (dot_S50000x128_S128x128_S50000x128_1_0_0_1_n_n.lhsIdx j q 0).val = (j 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem proj_rhs1 (j : S50000x128.Idx) (q : dot_S50000x128_S128x128_S50000x128_1_0_0_1_n_n.contr.Idx) :
    (dot_S50000x128_S128x128_S50000x128_1_0_0_1_n_n.rhsIdx j q 1).val = (j 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl
theorem proj_dot {φ₁ φ₂ : FTy} (l : FVec Ideal S50000x128 φ₁) (r : FVec Ideal S128x128 φ₂) (p : Fin 50000) (c : Fin 128) :
    Host.dotGeneral dot_S50000x128_S128x128_S50000x128_1_0_0_1_n_n none l r (ix2 p c)
      = ∑ k : Fin 128, l (ix2 p k) * r (ix2 k c) :=
  plain_dotGeneral dot_S50000x128_S128x128_S50000x128_1_0_0_1_n_n none _ rfl rfl rfl rfl proj_lhs0 proj_rhs1 l r p c

end Cert.KernelIdeal.Hand

end
-- ==== Proof.Mlp.lean ====
/-
  The two row formulas of the message-passing layer, on the extended reals.

  An edge's message, entry `c`: the hidden row is the sum of the source node's projection, the target node's
  projection and the edge attributes times the third block of the first weight, plus the first bias; it is
  rectified (maximum with the zero word), multiplied by the second weight and the second bias is added.

  A node's output, entry `c`: the hidden row is the node's features times the first block of the update weight plus
  the aggregated messages times its second block, plus the first bias; rectified, multiplied by the second weight,
  the second bias added.

  Both are functions of rank-2 arrays read at coordinates, for any number of rows: a kernel's block and the whole
  array are read by the same term. Biases are [1, 128] rows. The zero word is kept as its bit pattern: the same word
  stands on both sides of every equation below and is never evaluated.
-/
import Idealize.ShloMosaic.Lib.ValueIdx
import Idealize.ShloMosaic.PureOps.Ideal

noncomputable section

namespace Cert.Mlp

open Idealize.ShloMosaic Idealize.ShloMosaic.ValueIdx

/-- The word `0x00000000` at the exact instance. -/
abbrev zeroW : EReal := Ideal.ofBits .f32 0x00000000#32

/-- The second layer on a hidden row `h`: rectify, multiply by `W`, add the bias entry. -/
def outLayer (h : Fin 128 → EReal) (W : (⟨2, ![128, 128]⟩ : Shape).Idx → EReal)
    (b : (⟨2, ![1, 128]⟩ : Shape).Idx → EReal) (c : Fin 128) : EReal :=
  (∑ k : Fin 128, max (h k) zeroW * W (ix2 k c)) + b (ix2 (0 : Fin 1) c)

/-- An edge's hidden row from the two gathered projections and the edge attributes. -/
def edgeHidden {R : ℕ} (ur vc : (⟨2, ![R, 128]⟩ : Shape).Idx → EReal) (ea : (⟨2, ![R, 32]⟩ : Shape).Idx → EReal)
    (wc : (⟨2, ![32, 128]⟩ : Shape).Idx → EReal) (b1 : (⟨2, ![1, 128]⟩ : Shape).Idx → EReal)
    (p : Fin R) (k : Fin 128) : EReal :=
  ((ur (ix2 p k) + vc (ix2 p k)) + ∑ k' : Fin 32, ea (ix2 p k') * wc (ix2 k' k)) + b1 (ix2 (0 : Fin 1) k)

/-- An edge's message row. -/
def edgeRow {R : ℕ} (ur vc : (⟨2, ![R, 128]⟩ : Shape).Idx → EReal) (ea : (⟨2, ![R, 32]⟩ : Shape).Idx → EReal)
    (wc : (⟨2, ![32, 128]⟩ : Shape).Idx → EReal) (b1 : (⟨2, ![1, 128]⟩ : Shape).Idx → EReal)
    (w2 : (⟨2, ![128, 128]⟩ : Shape).Idx → EReal) (b2 : (⟨2, ![1, 128]⟩ : Shape).Idx → EReal)
    (p : Fin R) (c : Fin 128) : EReal :=
  outLayer (edgeHidden ur vc ea wc b1 p) w2 b2 c

/-- A node's hidden row from its features and its aggregated messages. -/
def nodeHidden {R : ℕ} (x a : (⟨2, ![R, 128]⟩ : Shape).Idx → EReal)
    (wa wb : (⟨2, ![128, 128]⟩ : Shape).Idx → EReal) (b1 : (⟨2, ![1, 128]⟩ : Shape).Idx → EReal)
    (p : Fin R) (k : Fin 128) : EReal :=
  ((∑ k' : Fin 128, x (ix2 p k') * wa (ix2 k' k)) + ∑ k' : Fin 128, a (ix2 p k') * wb (ix2 k' k)) + b1 (ix2 (0 : Fin 1) k)

/-- A node's output row. -/
def nodeRow {R : ℕ} (x a : (⟨2, ![R, 128]⟩ : Shape).Idx → EReal)
    (wa wb : (⟨2, ![128, 128]⟩ : Shape).Idx → EReal) (b1 : (⟨2, ![1, 128]⟩ : Shape).Idx → EReal)
    (w2 : (⟨2, ![128, 128]⟩ : Shape).Idx → EReal) (b2 : (⟨2, ![1, 128]⟩ : Shape).Idx → EReal)
    (p : Fin R) (c : Fin 128) : EReal :=
  outLayer (nodeHidden x a wa wb b1 p) w2 b2 c

/-- A row formula spread over a rank-2 array: entry `i` is the row `i 0` at column `i 1`. -/
def onArray {R : ℕ} (f : Fin R → Fin 128 → EReal) : (⟨2, ![R, 128]⟩ : Shape).Idx → EReal :=
  fun i => f (i 0) (i 1)

/-- The second layer depends on the hidden row, the weight and the bias entry by entry. -/
theorem outLayer_congr {h h' : Fin 128 → EReal} {W W' : (⟨2, ![128, 128]⟩ : Shape).Idx → EReal}
    {b b' : (⟨2, ![1, 128]⟩ : Shape).Idx → EReal} {c c' : Fin 128} (hc : c = c')
    (hh : ∀ k, h k = h' k) (hW : ∀ k d, W (ix2 k d) = W' (ix2 k d))
    (hb : ∀ d, b (ix2 (0 : Fin 1) d) = b' (ix2 (0 : Fin 1) d)) :
    outLayer h W b c = outLayer h' W' b' c' := by
  subst hc
  unfold outLayer
  rw [hb c]
  exact congrArg (· + b' (ix2 (0 : Fin 1) c)) (Finset.sum_congr rfl fun k _ => by rw [hh k, hW k c])

/-- An edge's message row read from two families of arrays that agree on the entries the row reads: row `p` of
    the first against row `p'` of the second for the three per-edge arrays, entry by entry for the weights and
    biases. -/
theorem edgeRow_congr {R R' : ℕ}
    {ur vc : (⟨2, ![R, 128]⟩ : Shape).Idx → EReal} {ea : (⟨2, ![R, 32]⟩ : Shape).Idx → EReal}
    {ur' vc' : (⟨2, ![R', 128]⟩ : Shape).Idx → EReal} {ea' : (⟨2, ![R', 32]⟩ : Shape).Idx → EReal}
    {wc wc' : (⟨2, ![32, 128]⟩ : Shape).Idx → EReal} {b1 b1' : (⟨2, ![1, 128]⟩ : Shape).Idx → EReal}
    {w2 w2' : (⟨2, ![128, 128]⟩ : Shape).Idx → EReal} {b2 b2' : (⟨2, ![1, 128]⟩ : Shape).Idx → EReal}
    {p : Fin R} {p' : Fin R'} {c c' : Fin 128} (hc : c = c')
    (hur : ∀ k, ur (ix2 p k) = ur' (ix2 p' k)) (hvc : ∀ k, vc (ix2 p k) = vc' (ix2 p' k))
    (hea : ∀ k, ea (ix2 p k) = ea' (ix2 p' k)) (hwc : ∀ k d, wc (ix2 k d) = wc' (ix2 k d))
    (hb1 : ∀ d, b1 (ix2 (0 : Fin 1) d) = b1' (ix2 (0 : Fin 1) d))
    (hw2 : ∀ k d, w2 (ix2 k d) = w2' (ix2 k d))
    (hb2 : ∀ d, b2 (ix2 (0 : Fin 1) d) = b2' (ix2 (0 : Fin 1) d)) :
    edgeRow ur vc ea wc b1 w2 b2 p c = edgeRow ur' vc' ea' wc' b1' w2' b2' p' c' := by
  unfold edgeRow
  refine outLayer_congr hc (fun k => ?_) hw2 hb2
  unfold edgeHidden
  rw [hur k, hvc k, hb1 k]
  exact congrArg (fun s => (ur' (ix2 p' k) + vc' (ix2 p' k) + s) + b1' (ix2 (0 : Fin 1) k))
    (Finset.sum_congr rfl fun k' _ => by rw [hea k', hwc k' k])

/-- A node's output row read from two families of arrays that agree on the entries the row reads. -/
theorem nodeRow_congr {R R' : ℕ}
    {x a : (⟨2, ![R, 128]⟩ : Shape).Idx → EReal} {x' a' : (⟨2, ![R', 128]⟩ : Shape).Idx → EReal}
    {wa wb wa' wb' : (⟨2, ![128, 128]⟩ : Shape).Idx → EReal} {b1 b1' : (⟨2, ![1, 128]⟩ : Shape).Idx → EReal}
    {w2 w2' : (⟨2, ![128, 128]⟩ : Shape).Idx → EReal} {b2 b2' : (⟨2, ![1, 128]⟩ : Shape).Idx → EReal}
    {p : Fin R} {p' : Fin R'} {c c' : Fin 128} (hc : c = c')
    (hx : ∀ k, x (ix2 p k) = x' (ix2 p' k)) (ha : ∀ k, a (ix2 p k) = a' (ix2 p' k))
    (hwa : ∀ k d, wa (ix2 k d) = wa' (ix2 k d)) (hwb : ∀ k d, wb (ix2 k d) = wb' (ix2 k d))
    (hb1 : ∀ d, b1 (ix2 (0 : Fin 1) d) = b1' (ix2 (0 : Fin 1) d))
    (hw2 : ∀ k d, w2 (ix2 k d) = w2' (ix2 k d))
    (hb2 : ∀ d, b2 (ix2 (0 : Fin 1) d) = b2' (ix2 (0 : Fin 1) d)) :
    nodeRow x a wa wb b1 w2 b2 p c = nodeRow x' a' wa' wb' b1' w2' b2' p' c' := by
  unfold nodeRow
  refine outLayer_congr hc (fun k => ?_) hw2 hb2
  unfold nodeHidden
  rw [hb1 k]
  exact congrArg₂ (fun s s' => (s + s') + b1' (ix2 (0 : Fin 1) k))
    (Finset.sum_congr rfl fun k' _ => by rw [hx k', hwa k' k])
    (Finset.sum_congr rfl fun k' _ => by rw [ha k', hwb k' k])

theorem onArray_ix2 {R : ℕ} (f : Fin R → Fin 128 → EReal) (p : Fin R) (c : Fin 128) : onArray f (ix2 p c) = f p c := rfl

end Cert.Mlp

end
-- ==== Proof.Payloads.lean ====
/-
  What each kernel body stores, read at an entry.

  The edge body stores, at row `p` and column `c` of its [8000, 128] block, the edge row formula of its seven loaded
  blocks; the node body stores, at row `p` and column `c` of its [5000, 128] block, the node row formula of its seven
  loaded blocks. A change of float format is the identity at the exact instance, a cast of a shape to itself is
  the identity, a [1, 128] bias row broadcast over the rows reads its one row, and each product into a zero
  accumulator is the plain sum.
-/
import proofs.«115804_j85993835200698_2_alg».proof.Proof.Gen.KernelIdeal.Skeleton
import proofs.«115804_j85993835200698_2_alg».proof.Proof.Products
import proofs.«115804_j85993835200698_2_alg».proof.Proof.Mlp
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The edge body's stored value at `(p, c)`. -/
theorem edge_pay_apply (x0 x1 : FVec Ideal S8000x128 .bf16) (x2 : FVec Ideal S8000x32 .bf16)
    (x3 : FVec Ideal S32x128 .bf16) (x4 : FVec Ideal S1x128 .f32) (x5 : FVec Ideal S128x128 .bf16)
    (x6 : FVec Ideal S1x128 .f32) (p : Fin 8000) (c : Fin 128) :
    k0_pay1 (F := Ideal) x0 x1 x2 x3 x4 x5 x6 (ix2 p c) = Cert.Mlp.edgeRow x0 x1 x2 x3 x4 x5 x6 p c := by
  unfold k0_pay1 Cert.Mlp.edgeRow Cert.Mlp.outLayer Cert.Mlp.edgeHidden
  simp only [shapeCast_self, addf_apply, truncf_apply, extf_apply, maximumf_apply, broadcast_apply,
    edge_out_matmul, edge_attr_matmul, broadcastTo_1b_ab_apply]
  rfl

/-- The node body's stored value at `(p, c)`. -/
theorem node_pay_apply (x0 : FVec Ideal S5000x128 .bf16) (x1 : FVec Ideal S5000x128 .f32)
    (x2 x3 : FVec Ideal S128x128 .bf16) (x4 : FVec Ideal S1x128 .f32) (x5 : FVec Ideal S128x128 .bf16)
    (x6 : FVec Ideal S1x128 .f32) (p : Fin 5000) (c : Fin 128) :
    k1_pay1 (F := Ideal) x0 x1 x2 x3 x4 x5 x6 (ix2 p c) = Cert.Mlp.nodeRow x0 x1 x2 x3 x4 x5 x6 p c := by
  unfold k1_pay1 Cert.Mlp.nodeRow Cert.Mlp.outLayer Cert.Mlp.nodeHidden
  simp only [shapeCast_self, addf_apply, truncf_apply, extf_apply, maximumf_apply, broadcast_apply,
    node_matmul, broadcastTo_1b_ab_apply]
  rfl

end Cert.KernelIdeal.Hand

end
-- ==== Proof.NodeRegion.lean ====
/-
  The node kernel's output array as one function of the arrays it is entered with.

  The grid has 10 points; point `t` stages rows `5000 t … 5000 t + 4999` of the node features and of the aggregated
  messages, and the five weight and bias arrays whole, and writes back rows `5000 t … 5000 t + 4999` of the result.
  What it writes back at row `p` of the block is the node row formula of the staged blocks, which is the node row
  formula of the whole arrays at row `5000 t + p`; the 10 blocks tile the result, so after the pipeline the result is
  the node row formula of the entry arrays, row by row.
-/
import proofs.«115804_j85993835200698_2_alg».proof.Proof.Gen.KernelIdeal.Frame
import proofs.«115804_j85993835200698_2_alg».proof.Proof.Payloads
import proofs.«115804_j85993835200698_2_alg».proof.Proof.Mlp
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets' : (![0, 0] : Fin 2 → Nat) = fun _ => 0 := funext fun a => by fin_cases a <;> rfl

/-- The result array after the node pipeline, from the arrays the region is entered with. -/
def nodeArr (c : Dev nD) : S50000x128.Idx → EReal :=
  Cert.Mlp.onArray (Cert.Mlp.nodeRow (V c main_v4) (V c main_v36) (V c main_v38) (V c main_v40) (V c main_v42)
    (V c main_v41) (V c main_v43))

/-- The printed index maps over the grid: the two per-node windows and the output window move one block of rows
    per point, the weight and bias windows stay at block (0, 0). -/
theorem node_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Window 0's block at point `t` is rows `5000 t …` of the node features. -/
theorem node_blk0 (c : Dev nD) (t : Fin cfg1.N) (y : S5000x128.Idx) (i : S50000x128.Idx)
    (h0 : (i 0).val = 5000 * t.val + (y 0).val) (h1 : (i 1).val = (y 1).val) :
    (iblk1 V c 0 t : S5000x128.Idx → EReal) y = (V c main_v4 : S50000x128.Idx → EReal) i := by
  obtain ⟨e0, e1, -⟩ := node_index_facts t
  unfold iblk1
  rw [View.read_apply]
  show V c main_v4 _ = V c main_v4 _
  refine congrArg (V c main_v4) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- Window 1's block at point `t` is rows `5000 t …` of the aggregated messages. -/
theorem node_blk1 (c : Dev nD) (t : Fin cfg1.N) (y : S5000x128.Idx) (i : S50000x128.Idx)
    (h0 : (i 0).val = 5000 * t.val + (y 0).val) (h1 : (i 1).val = (y 1).val) :
    (iblk1 V c 1 t : S5000x128.Idx → EReal) y = (V c main_v36 : S50000x128.Idx → EReal) i := by
  obtain ⟨-, -, e0, e1, -⟩ := node_index_facts t
  unfold iblk1
  rw [View.read_apply]
  show V c main_v36 _ = V c main_v36 _
  refine congrArg (V c main_v36) (funext fun a => Fin.ext ?_)
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- Window 2's block at every point is the whole first block of the update weight. -/
theorem node_blk2 (c : Dev nD) (t : Fin cfg1.N) (y : S128x128.Idx) :
    (iblk1 V c 2 t : S128x128.Idx → EReal) y = (V c main_v38 : S128x128.Idx → EReal) y := by
  obtain ⟨-, -, -, -, e0, e1, -⟩ := node_index_facts t
  unfold iblk1
  rw [View.read_apply]
  show V c main_v38 _ = V c main_v38 _
  refine congrArg (V c main_v38) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- Window 3's block at every point is the whole second block of the update weight. -/
theorem node_blk3 (c : Dev nD) (t : Fin cfg1.N) (y : S128x128.Idx) :
    (iblk1 V c 3 t : S128x128.Idx → EReal) y = (V c main_v40 : S128x128.Idx → EReal) y := by
  obtain ⟨-, -, -, -, -, -, e0, e1, -⟩ := node_index_facts t
  unfold iblk1
  rw [View.read_apply]
  show V c main_v40 _ = V c main_v40 _
  refine congrArg (V c main_v40) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- Window 4's block at every point is the whole first bias row. -/
theorem node_blk4 (c : Dev nD) (t : Fin cfg1.N) (y : S1x128.Idx) :
    (iblk1 V c 4 t : S1x128.Idx → EReal) y = (V c main_v42 : S1x128.Idx → EReal) y := by
  obtain ⟨-, -, -, -, -, -, -, -, e0, e1, -⟩ := node_index_facts t
  unfold iblk1
  rw [View.read_apply]
  show V c main_v42 _ = V c main_v42 _
  refine congrArg (V c main_v42) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- Window 5's block at every point is the whole second weight. -/
theorem node_blk5 (c : Dev nD) (t : Fin cfg1.N) (y : S128x128.Idx) :
    (iblk1 V c 5 t : S128x128.Idx → EReal) y = (V c main_v41 : S128x128.Idx → EReal) y := by
  obtain ⟨-, -, -, -, -, -, -, -, -, -, e0, e1, -⟩ := node_index_facts t
  unfold iblk1
  rw [View.read_apply]
  show V c main_v41 _ = V c main_v41 _
  refine congrArg (V c main_v41) (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- Window 6's block at every point is the whole second bias row. -/
theorem node_blk6 (c : Dev nD) (t : Fin cfg1.N) (y : S1x128.Idx) :
    (iblk1 V c 6 t : S1x128.Idx → EReal) y = (V c main_v43 : S1x128.Idx → EReal) y := by
  obtain ⟨-, -, -, -, -, -, -, -, -, -, -, -, e0, e1, -⟩ := node_index_facts t
  unfold iblk1
  rw [View.read_apply]
  show V c main_v43 _ = V c main_v43 _
  refine congrArg (V c main_v43) (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- The node body's stored value at any index of its block, by the index's two coordinates. -/
theorem node_pay_at (x0 : FVec Ideal S5000x128 .bf16) (x1 : FVec Ideal S5000x128 .f32)
    (x2 x3 : FVec Ideal S128x128 .bf16) (x4 : FVec Ideal S1x128 .f32) (x5 : FVec Ideal S128x128 .bf16)
    (x6 : FVec Ideal S1x128 .f32) (y : S5000x128.Idx) :
    k1_pay1 (F := Ideal) x0 x1 x2 x3 x4 x5 x6 y = Cert.Mlp.nodeRow x0 x1 x2 x3 x4 x5 x6 (y 0) (y 1) :=
  (congrArg (k1_pay1 (F := Ideal) x0 x1 x2 x3 x4 x5 x6) (eq_ix2 y)).trans
    (node_pay_apply x0 x1 x2 x3 x4 x5 x6 (y 0) (y 1))

/-- What point `t` writes back is block `t` of the node row formula of the entry arrays. -/
theorem node_flushed (c : Dev nD) (t : Fin cfg1.N) :
    (dat1 V c).flushed 7 t = ((cfg1.win 7).blk t).view.read (Elt Ideal) (nodeArr V c) := by
  show (cfg1.win 7).cut (grid1.coords t) ((dat1 V c).after 7 t) = _
  rw [after1_7]
  unfold out1_7
  rw [View.canon_unit_zero zero_offsets']
  simp only [View.ld_unit_zero (S := S5000x128) zero_offsets', View.ld_unit_zero (S := S1x128) zero_offsets',
    View.ld_unit_zero (S := S128x128) zero_offsets']
  obtain ⟨-, -, -, -, -, -, -, -, -, -, -, -, -, -, e0, e1⟩ := node_index_facts t
  funext j
  show k1_pay1 (F := Ideal) (iblk1 V c 0 t) (iblk1 V c 1 t) (iblk1 V c 2 t) (iblk1 V c 3 t) (iblk1 V c 4 t)
      (iblk1 V c 5 t) (iblk1 V c 6 t) j = nodeArr V c (((cfg1.win 7).blk t).view.emb j)
  refine (node_pay_at (iblk1 V c 0 t) (iblk1 V c 1 t) (iblk1 V c 2 t) (iblk1 V c 3 t) (iblk1 V c 4 t)
      (iblk1 V c 5 t) (iblk1 V c 6 t) j).trans ?_
  have r0 : ((((cfg1.win 7).blk t).view.emb j) 0).val = 5000 * t.val + (j 0).val := by
    show win1_7.index t (0 : Fin 2) * 5000 + 1 * (j 0).val = 5000 * t.val + (j 0).val
    rw [e0]; omega
  have r1 : ((((cfg1.win 7).blk t).view.emb j) 1).val = (j 1).val := by
    show win1_7.index t (1 : Fin 2) * 128 + 1 * (j 1).val = (j 1).val
    rw [e1]; omega
  unfold nodeArr Cert.Mlp.onArray
  refine Cert.Mlp.nodeRow_congr (Fin.ext r1.symm) (fun k => node_blk0 V c t _ _ r0 rfl) (fun k => node_blk1 V c t _ _ r0 rfl)
    (fun k d => node_blk2 V c t _) (fun k d => node_blk3 V c t _) (fun d => node_blk4 V c t _)
    (fun k d => node_blk5 V c t _) (fun d => node_blk6 V c t _)

/-- Every row of the result is in some point's block. -/
theorem node_cover (i : S50000x128.Idx) :
    ∃ t : Fin cfg1.N, (cfg1.win 7).flush t = true ∧ i ∈ ((cfg1.win 7).blk t).view.set := by
  have h0 : (i 0).val < 50000 := (i 0).isLt
  have h1 : (i 1).val < 128 := (i 1).isLt
  have hN : cfg1.N = 10 := N_1
  let t : Fin cfg1.N := ⟨(i 0).val / 5000, by rw [hN]; omega⟩
  obtain ⟨-, -, -, -, -, -, -, -, -, -, -, -, -, -, e0, e1⟩ := node_index_facts t
  refine ⟨t, flush1_7 t, ?_⟩
  show i ∈ ((View.whole main_v44).slice (win1_7.rect t)).set
  rw [View.set_slice_whole, Rect.mem_set_unit]
  intro a
  match a with
  | ⟨0, _⟩ =>
    show win1_7.index t (0 : Fin 2) * 5000 ≤ (i 0).val ∧ (i 0).val < win1_7.index t (0 : Fin 2) * 5000 + 5000
    rw [e0]; show (i 0).val / 5000 * 5000 ≤ (i 0).val ∧ (i 0).val < (i 0).val / 5000 * 5000 + 5000; omega
  | ⟨1, _⟩ =>
    show win1_7.index t (1 : Fin 2) * 128 ≤ (i 1).val ∧ (i 1).val < win1_7.index t (1 : Fin 2) * 128 + 128
    rw [e1]; omega

/-- THE RESULT after the node pipeline: the node row formula of the entry arrays, row by row. -/
theorem node_array (c : Dev nD) : (dat1 V c).arrAt 7 cfg1.N = nodeArr V c :=
  (dat1 V c).arrAt_eq_of_cover 7 (nodeArr V c) (fun t _ => node_flushed V c t) node_cover

end Cert.KernelIdeal.Hand

end
-- ==== Proof.HostBefore.lean ====
/-
  The arrays the edge kernel is entered with, as functions of the launch arguments.

  Before the edge kernel the host splits the edge list into its source row and its target row, moves a negative
  node index up by the node count and carries each as a column of start indices; projects the node features through
  the first and the second [128, 128] block of the first weight; gathers the first projection at the sources and the
  second at the targets; and passes on the edge attributes, the third block of the first weight, the second weight
  and the two biases as [1, 128] rows. Changes of float format are kept as printed: at the exact instance they are
  the identity.
-/
import proofs.«115804_j85993835200698_2_alg».proof.Proof.Gen.KernelIdeal.Frame
import Idealize.ShloMosaic.Lib.StableHlo.Run
import Idealize.ShloMosaic.PureOps.Ideal

set_option maxRecDepth 16384
set_option maxHeartbeats 1000000

noncomputable section

namespace Cert.KernelIdeal.Hand

open Cert.KernelIdeal Cert.KernelIdeal.Gen Idealize.ShloMosaic Idealize.ShloMosaic.TcCoe Idealize.SL.Sem
open Idealize.ShloMosaic.StableHlo

/-- Row `r` of the edge list as a vector of node indices (`r = 0` the sources, `r = 1` the targets). -/
def srcRow (ei : (⟨S2x600000, .i32⟩ : BufTy).Contents (Elt Ideal)) : (⟨S600000, .i32⟩ : BufTy).Contents (Elt Ideal) :=
  shapeCast S600000 (extractStridedSlice S1x600000 ![0, 0] ei slices_S2x600000_S1x600000_0_0) shapeCasts_S1x600000_S600000
def dstRow (ei : (⟨S2x600000, .i32⟩ : BufTy).Contents (Elt Ideal)) : (⟨S600000, .i32⟩ : BufTy).Contents (Elt Ideal) :=
  shapeCast S600000 (extractStridedSlice S1x600000 ![1, 0] ei slices_S2x600000_S1x600000_1_0) shapeCasts_S1x600000_S600000

/-- A vector of node indices as a column of gather start indices: a negative index is moved up by 50000. -/
def starts (r : (⟨S600000, .i32⟩ : BufTy).Contents (Elt Ideal)) : (⟨S600000x1, .i32⟩ : BufTy).Contents (Elt Ideal) :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 50000#32))) r)

/-- The node features projected through a [128, 128] block of the first weight. -/
def proj (x : FVec Ideal S50000x128 .f32) (w : FVec Ideal S128x128 .f32) : FVec Ideal S50000x128 .bf16 :=
  truncf (F := Ideal) .bf16 (Host.dotGeneral (F := Ideal) dot_S50000x128_S128x128_S50000x128_1_0_0_1_n_n none
    (truncf (F := Ideal) .bf16 x bitsLt_bf16_f32) (truncf (F := Ideal) .bf16 w bitsLt_bf16_f32)) bitsLt_bf16_f32

variable (m : (ℓ : Loc nD τ sig) → Buf (Elt Ideal) ℓ) (ρ : Dev nD → PrngReg)

/-- Window 0's array: the first projection gathered at the sources. -/
theorem entry_v24 (c : Dev nD) : V1 m ρ c main_v24
    = Host.gather gather_S50000x128_S600000x1_S600000x128_1_0_n_n_0_1_1128
        (proj (m ((c : Thread nD τ).loc main_arg0))
          (extractStridedSlice S128x128 ![0, 0] (m ((c : Thread nD τ).loc main_arg3)) slices_S288x128_S128x128_0_0))
        (starts (srcRow (m ((c : Thread nD τ).loc main_arg1)))) := by
  show StableHlo.after hostOps0 (W0 m ρ c) (Proc.devRef .tc main_v24) = _
  after_results_simp <;> rfl

/-- Window 1's array: the second projection gathered at the targets. -/
theorem entry_v31 (c : Dev nD) : V1 m ρ c main_v31
    = Host.gather gather_S50000x128_S600000x1_S600000x128_1_0_n_n_0_1_1128
        (proj (m ((c : Thread nD τ).loc main_arg0))
          (extractStridedSlice S128x128 ![128, 0] (m ((c : Thread nD τ).loc main_arg3)) slices_S288x128_S128x128_128_0))
        (starts (dstRow (m ((c : Thread nD τ).loc main_arg1)))) := by
  show StableHlo.after hostOps0 (W0 m ρ c) (Proc.devRef .tc main_v31) = _
  after_results_simp <;> rfl

/-- Window 2's array: the edge attributes. -/
theorem entry_v32 (c : Dev nD) : V1 m ρ c main_v32
    = truncf (F := Ideal) .bf16 (m ((c : Thread nD τ).loc main_arg2) : FVec Ideal S600000x32 .f32) bitsLt_bf16_f32 := by
  show StableHlo.after hostOps0 (W0 m ρ c) (Proc.devRef .tc main_v32) = _
  after_results_simp <;> rfl

/-- Window 3's array: the third block (rows 256 … 287) of the first weight. -/
theorem entry_v10 (c : Dev nD) : V1 m ρ c main_v10
    = truncf (F := Ideal) .bf16 (extractStridedSlice S32x128 ![256, 0] (m ((c : Thread nD τ).loc main_arg3) : FVec Ideal S288x128 .f32)
        slices_S288x128_S32x128_256_0) bitsLt_bf16_f32 := by
  show StableHlo.after hostOps0 (W0 m ρ c) (Proc.devRef .tc main_v10) = _
  after_results_simp <;> rfl

/-- Window 4's array: the first bias as a [1, 128] row. -/
theorem entry_v12 (c : Dev nD) : V1 m ρ c main_v12
    = shapeCast S1x128 (m ((c : Thread nD τ).loc main_arg4)) shapeCasts_S128_S1x128 := by
  show StableHlo.after hostOps0 (W0 m ρ c) (Proc.devRef .tc main_v12) = _
  after_results_simp <;> rfl

/-- Window 5's array: the second weight. -/
theorem entry_v11 (c : Dev nD) : V1 m ρ c main_v11
    = truncf (F := Ideal) .bf16 (m ((c : Thread nD τ).loc main_arg5) : FVec Ideal S128x128 .f32) bitsLt_bf16_f32 := by
  show StableHlo.after hostOps0 (W0 m ρ c) (Proc.devRef .tc main_v11) = _
  after_results_simp <;> rfl

/-- Window 6's array: the second bias as a [1, 128] row. -/
theorem entry_v13 (c : Dev nD) : V1 m ρ c main_v13
    = shapeCast S1x128 (m ((c : Thread nD τ).loc main_arg6)) shapeCasts_S128_S1x128 := by
  show StableHlo.after hostOps0 (W0 m ρ c) (Proc.devRef .tc main_v13) = _
  after_results_simp <;> rfl

/-- The targets row, which the scatter after the edge kernel reads. -/
theorem entry_v3 (c : Dev nD) : W1 m ρ c (Proc.devRef .tc main_v3) = dstRow (m ((c : Thread nD τ).loc main_arg1)) := by
  show StableHlo.after hostOps0 (W0 m ρ c) (Proc.devRef .tc main_v3) = _
  after_results_simp <;> rfl

/-- The node features in the kernels' format, which the node kernel reads. -/
theorem entry_v4 (c : Dev nD) : W1 m ρ c (Proc.devRef .tc main_v4)
    = truncf (F := Ideal) .bf16 (m ((c : Thread nD τ).loc main_arg0) : FVec Ideal S50000x128 .f32) bitsLt_bf16_f32 := by
  show StableHlo.after hostOps0 (W0 m ρ c) (Proc.devRef .tc main_v4) = _
  after_results_simp <;> rfl

end Cert.KernelIdeal.Hand

end
-- ==== Proof.EdgeRegion.lean ====
/-
  The edge kernel's output array as one function of the arrays it is entered with.

  The grid has 75 points; point `t` stages rows `8000 t … 8000 t + 7999` of the two gathered projection arrays and of
  the edge attributes, and the four weight and bias arrays whole, and writes back rows `8000 t … 8000 t + 7999` of the
  message array. What it writes back at row `p` of the block is the edge row formula of the staged blocks, which is
  the edge row formula of the whole arrays at row `8000 t + p`; the 75 blocks tile the message array, so after the
  pipeline the message array is the edge row formula of the entry arrays, row by row.
-/
import proofs.«115804_j85993835200698_2_alg».proof.Proof.Gen.KernelIdeal.Frame
import proofs.«115804_j85993835200698_2_alg».proof.Proof.Payloads
import proofs.«115804_j85993835200698_2_alg».proof.Proof.Mlp
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The message array after the edge pipeline, from the arrays the region is entered with. -/
def edgeArr (c : Dev nD) : S600000x128.Idx → EReal :=
  Cert.Mlp.onArray (Cert.Mlp.edgeRow (V c main_v24) (V c main_v31) (V c main_v32) (V c main_v10) (V c main_v12)
    (V c main_v11) (V c main_v13))

/-- The printed index maps over the grid: the three per-edge windows and the output window move one block of rows
    per point, the weight and bias windows stay at block (0, 0). -/
theorem edge_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 0's block at point `t` is rows `8000 t …` of the first gathered projection array. -/
theorem edge_blk0 (c : Dev nD) (t : Fin cfg0.N) (y : S8000x128.Idx) (i : S600000x128.Idx)
    (h0 : (i 0).val = 8000 * t.val + (y 0).val) (h1 : (i 1).val = (y 1).val) :
    (iblk0 V c 0 t : S8000x128.Idx → EReal) y = (V c main_v24 : S600000x128.Idx → EReal) i := by
  obtain ⟨e0, e1, -⟩ := edge_index_facts t
  unfold iblk0
  rw [View.read_apply]
  show V c main_v24 _ = V c main_v24 _
  refine congrArg (V c main_v24) (funext fun a => Fin.ext ?_)
  match a with
  | ⟨0, _⟩ => show win0_0.index t (0 : Fin 2) * 8000 + 1 * (y 0).val = (i 0).val; rw [e0, h0]; omega
  | ⟨1, _⟩ => show win0_0.index t (1 : Fin 2) * 128 + 1 * (y 1).val = (i 1).val; rw [e1, h1]; omega

/-- Window 1's block at point `t` is rows `8000 t …` of the second gathered projection array. -/
theorem edge_blk1 (c : Dev nD) (t : Fin cfg0.N) (y : S8000x128.Idx) (i : S600000x128.Idx)
    (h0 : (i 0).val = 8000 * t.val + (y 0).val) (h1 : (i 1).val = (y 1).val) :
    (iblk0 V c 1 t : S8000x128.Idx → EReal) y = (V c main_v31 : S600000x128.Idx → EReal) i := by
  obtain ⟨-, -, e0, e1, -⟩ := edge_index_facts t
  unfold iblk0
  rw [View.read_apply]
  show V c main_v31 _ = V c main_v31 _
  refine congrArg (V c main_v31) (funext fun a => Fin.ext ?_)
  match a with
  | ⟨0, _⟩ => show win0_1.index t (0 : Fin 2) * 8000 + 1 * (y 0).val = (i 0).val; rw [e0, h0]; omega
  | ⟨1, _⟩ => show win0_1.index t (1 : Fin 2) * 128 + 1 * (y 1).val = (i 1).val; rw [e1, h1]; omega

/-- Window 2's block at point `t` is rows `8000 t …` of the edge attributes. -/
theorem edge_blk2 (c : Dev nD) (t : Fin cfg0.N) (y : S8000x32.Idx) (i : S600000x32.Idx)
    (h0 : (i 0).val = 8000 * t.val + (y 0).val) (h1 : (i 1).val = (y 1).val) :
    (iblk0 V c 2 t : S8000x32.Idx → EReal) y = (V c main_v32 : S600000x32.Idx → EReal) i := by
  obtain ⟨-, -, -, -, e0, e1, -⟩ := edge_index_facts t
  unfold iblk0
  rw [View.read_apply]
  show V c main_v32 _ = V c main_v32 _
  refine congrArg (V c main_v32) (funext fun a => Fin.ext ?_)
  match a with
  | ⟨0, _⟩ => show win0_2.index t (0 : Fin 2) * 8000 + 1 * (y 0).val = (i 0).val; rw [e0, h0]; omega
  | ⟨1, _⟩ => show win0_2.index t (1 : Fin 2) * 32 + 1 * (y 1).val = (i 1).val; rw [e1, h1]; omega

/-- Window 3's block at every point is the whole third block of the first weight. -/
theorem edge_blk3 (c : Dev nD) (t : Fin cfg0.N) (y : S32x128.Idx) :
    (iblk0 V c 3 t : S32x128.Idx → EReal) y = (V c main_v10 : S32x128.Idx → EReal) y := by
  obtain ⟨-, -, -, -, -, -, e0, e1, -⟩ := edge_index_facts t
  unfold iblk0
  rw [View.read_apply]
  show V c main_v10 _ = V c main_v10 _
  refine congrArg (V c main_v10) (funext fun a => Fin.ext ?_)
  match a with
  | ⟨0, _⟩ => show win0_3.index t (0 : Fin 2) * 32 + 1 * (y 0).val = (y 0).val; rw [e0]; omega
  | ⟨1, _⟩ => show win0_3.index t (1 : Fin 2) * 128 + 1 * (y 1).val = (y 1).val; rw [e1]; omega

/-- Window 4's block at every point is the whole first bias row. -/
theorem edge_blk4 (c : Dev nD) (t : Fin cfg0.N) (y : S1x128.Idx) :
    (iblk0 V c 4 t : S1x128.Idx → EReal) y = (V c main_v12 : S1x128.Idx → EReal) y := by
  obtain ⟨-, -, -, -, -, -, -, -, e0, e1, -⟩ := edge_index_facts t
  unfold iblk0
  rw [View.read_apply]
  show V c main_v12 _ = V c main_v12 _
  refine congrArg (V c main_v12) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Window 5's block at every point is the whole second weight. -/
theorem edge_blk5 (c : Dev nD) (t : Fin cfg0.N) (y : S128x128.Idx) :
    (iblk0 V c 5 t : S128x128.Idx → EReal) y = (V c main_v11 : S128x128.Idx → EReal) y := by
  obtain ⟨-, -, -, -, -, -, -, -, -, -, e0, e1, -⟩ := edge_index_facts t
  unfold iblk0
  rw [View.read_apply]
  show V c main_v11 _ = V c main_v11 _
  refine congrArg (V c main_v11) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- Window 6's block at every point is the whole second bias row. -/
theorem edge_blk6 (c : Dev nD) (t : Fin cfg0.N) (y : S1x128.Idx) :
    (iblk0 V c 6 t : S1x128.Idx → EReal) y = (V c main_v13 : S1x128.Idx → EReal) y := by
  obtain ⟨-, -, -, -, -, -, -, -, -, -, -, -, e0, e1, -⟩ := edge_index_facts t
  unfold iblk0
  rw [View.read_apply]
  show V c main_v13 _ = V c main_v13 _
  refine congrArg (V c main_v13) (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- The edge body's stored value at any index of its block, by the index's two coordinates. -/
theorem edge_pay_at (x0 x1 : FVec Ideal S8000x128 .bf16) (x2 : FVec Ideal S8000x32 .bf16)
    (x3 : FVec Ideal S32x128 .bf16) (x4 : FVec Ideal S1x128 .f32) (x5 : FVec Ideal S128x128 .bf16)
    (x6 : FVec Ideal S1x128 .f32) (y : S8000x128.Idx) :
    k0_pay1 (F := Ideal) x0 x1 x2 x3 x4 x5 x6 y = Cert.Mlp.edgeRow x0 x1 x2 x3 x4 x5 x6 (y 0) (y 1) :=
  (congrArg (k0_pay1 (F := Ideal) x0 x1 x2 x3 x4 x5 x6) (eq_ix2 y)).trans
    (edge_pay_apply x0 x1 x2 x3 x4 x5 x6 (y 0) (y 1))

/-- What point `t` writes back is block `t` of the edge row formula of the entry arrays. -/
theorem edge_flushed (c : Dev nD) (t : Fin cfg0.N) :
    (dat0 V c).flushed 7 t = ((cfg0.win 7).blk t).view.read (Elt Ideal) (edgeArr V c) := by
  show (cfg0.win 7).cut (grid0.coords t) ((dat0 V c).after 7 t) = _
  rw [after0_7]
  unfold out0_7
  rw [View.canon_unit_zero zero_offsets]
  simp only [View.ld_unit_zero (S := S8000x128) zero_offsets, View.ld_unit_zero (S := S8000x32) zero_offsets,
    View.ld_unit_zero (S := S32x128) zero_offsets, View.ld_unit_zero (S := S1x128) zero_offsets,
    View.ld_unit_zero (S := S128x128) zero_offsets]
  obtain ⟨-, -, -, -, -, -, -, -, -, -, -, -, -, -, e0, e1⟩ := edge_index_facts t
  funext j
  show k0_pay1 (F := Ideal) (iblk0 V c 0 t) (iblk0 V c 1 t) (iblk0 V c 2 t) (iblk0 V c 3 t) (iblk0 V c 4 t)
      (iblk0 V c 5 t) (iblk0 V c 6 t) j = edgeArr V c (((cfg0.win 7).blk t).view.emb j)
  refine (edge_pay_at (iblk0 V c 0 t) (iblk0 V c 1 t) (iblk0 V c 2 t) (iblk0 V c 3 t) (iblk0 V c 4 t)
      (iblk0 V c 5 t) (iblk0 V c 6 t) j).trans ?_
  have r0 : ((((cfg0.win 7).blk t).view.emb j) 0).val = 8000 * t.val + (j 0).val := by
    show win0_7.index t (0 : Fin 2) * 8000 + 1 * (j 0).val = 8000 * t.val + (j 0).val
    rw [e0]; omega
  have r1 : ((((cfg0.win 7).blk t).view.emb j) 1).val = (j 1).val := by
    show win0_7.index t (1 : Fin 2) * 128 + 1 * (j 1).val = (j 1).val
    rw [e1]; omega
  unfold edgeArr Cert.Mlp.onArray
  refine Cert.Mlp.edgeRow_congr (Fin.ext r1.symm) (fun k => edge_blk0 V c t _ _ r0 rfl) (fun k => edge_blk1 V c t _ _ r0 rfl)
    (fun k => edge_blk2 V c t _ _ r0 rfl) (fun k d => edge_blk3 V c t _) (fun d => edge_blk4 V c t _)
    (fun k d => edge_blk5 V c t _) (fun d => edge_blk6 V c t _)

/-- Every row of the message array is in some point's block. -/
theorem edge_cover (i : S600000x128.Idx) :
    ∃ t : Fin cfg0.N, (cfg0.win 7).flush t = true ∧ i ∈ ((cfg0.win 7).blk t).view.set := by
  have h0 : (i 0).val < 600000 := (i 0).isLt
  have h1 : (i 1).val < 128 := (i 1).isLt
  have hN : cfg0.N = 75 := N_0
  let t : Fin cfg0.N := ⟨(i 0).val / 8000, by rw [hN]; omega⟩
  obtain ⟨-, -, -, -, -, -, -, -, -, -, -, -, -, -, e0, e1⟩ := edge_index_facts t
  refine ⟨t, flush0_7 t, ?_⟩
  show i ∈ ((View.whole main_v33).slice (win0_7.rect t)).set
  rw [View.set_slice_whole, Rect.mem_set_unit]
  intro a
  match a with
  | ⟨0, _⟩ =>
    show win0_7.index t (0 : Fin 2) * 8000 ≤ (i 0).val ∧ (i 0).val < win0_7.index t (0 : Fin 2) * 8000 + 8000
    rw [e0]; show (i 0).val / 8000 * 8000 ≤ (i 0).val ∧ (i 0).val < (i 0).val / 8000 * 8000 + 8000; omega
  | ⟨1, _⟩ =>
    show win0_7.index t (1 : Fin 2) * 128 ≤ (i 1).val ∧ (i 1).val < win0_7.index t (1 : Fin 2) * 128 + 128
    rw [e1]; omega

/-- THE MESSAGE ARRAY after the edge pipeline: the edge row formula of the entry arrays, row by row. -/
theorem edge_array (c : Dev nD) : (dat0 V c).arrAt 7 cfg0.N = edgeArr V c :=
  (dat0 V c).arrAt_eq_of_cover 7 (edgeArr V c) (fun t _ => edge_flushed V c t) edge_cover

end Cert.KernelIdeal.Hand

end
-- ==== Proof.HostBetween.lean ====
/-
  The arrays the node kernel is entered with, as functions of the launch arguments.

  Between the two kernels the host scatters the message array, accumulating, into a zero [50000, 128] array at the
  target node of each edge (the targets as launched: an out-of-range index drops its row), splits the update weight
  into its two [128, 128] blocks, and passes on the second update weight and the two update biases as [1, 128] rows.
  The node features in the kernels' format were made before the edge kernel and are not touched since. The message
  array is the edge pipeline's output, which is the edge row formula of that pipeline's entry arrays.
-/
import proofs.«115804_j85993835200698_2_alg».proof.Proof.Gen.KernelIdeal.Frame
import proofs.«115804_j85993835200698_2_alg».proof.Proof.HostBefore
import proofs.«115804_j85993835200698_2_alg».proof.Proof.EdgeRegion
import Idealize.ShloMosaic.Lib.StableHlo.Run
import Idealize.ShloMosaic.PureOps.Ideal

set_option maxRecDepth 16384
set_option maxHeartbeats 1000000

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## What the edge pipeline leaves untouched -/

theorem exit_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl
theorem exit_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl
theorem exit_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp <;> rfl
theorem exit_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results_simp <;> rfl
theorem exit_v3 (c : Dev nD) : W2 m ρ c (Proc.devRef .tc main_v3) = dstRow (m ((c : Thread nD τ).loc main_arg1)) :=
  (W2_of_ne m ρ c main_v3 (by decide)).trans (entry_v3 m ρ c)
theorem exit_v4 (c : Dev nD) : W2 m ρ c (Proc.devRef .tc main_v4)
    = truncf (F := Ideal) .bf16 (m ((c : Thread nD τ).loc main_arg0) : FVec Ideal S50000x128 .f32) bitsLt_bf16_f32 :=
  (W2_of_ne m ρ c main_v4 (by decide)).trans (entry_v4 m ρ c)
/-- The message array at the edge pipeline's exit is the edge row formula of its entry arrays. -/
theorem exit_v33 (c : Dev nD) : W2 m ρ c (Proc.devRef .tc main_v33) = edgeArr (V1 m ρ) c :=
  (W2_arr m ρ c 7).trans (edge_array (V1 m ρ) c)

/-! ## The node pipeline's entry arrays -/

/-- The messages scattered, accumulating, at the targets into a zero array. -/
def aggregate (ei : (⟨S2x600000, .i32⟩ : BufTy).Contents (Elt Ideal)) (msgs : FVec Ideal S600000x128 .f32) :
    FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (dstRow ei)) msgs

/-- Window 0's array: the node features. -/
theorem entry_node_v4 (c : Dev nD) : V3 m ρ c main_v4
    = truncf (F := Ideal) .bf16 (m ((c : Thread nD τ).loc main_arg0) : FVec Ideal S50000x128 .f32) bitsLt_bf16_f32 := by
  refine Eq.trans ?_ (exit_v4 m ρ c)
  show StableHlo.after hostOps1 (W2 m ρ c) (Proc.devRef .tc main_v4) = _
  after_results_simp <;> rfl

/-- Window 1's array: the aggregated messages. -/
theorem entry_node_v36 (c : Dev nD) : V3 m ρ c main_v36
    = aggregate (m ((c : Thread nD τ).loc main_arg1)) (edgeArr (V1 m ρ) c) := by
  unfold aggregate
  rw [← exit_v3 m ρ c, ← exit_v33 m ρ c]
  show StableHlo.after hostOps1 (W2 m ρ c) (Proc.devRef .tc main_v36) = _
  after_results_simp <;> rfl

/-- Window 2's array: rows 0 … 127 of the update weight. -/
theorem entry_node_v38 (c : Dev nD) : V3 m ρ c main_v38
    = truncf (F := Ideal) .bf16 (extractStridedSlice S128x128 ![0, 0] (m ((c : Thread nD τ).loc main_arg7) : FVec Ideal S256x128 .f32)
        slices_S256x128_S128x128_0_0) bitsLt_bf16_f32 := by
  rw [← exit_arg7 m ρ c]
  show StableHlo.after hostOps1 (W2 m ρ c) (Proc.devRef .tc main_v38) = _
  after_results_simp <;> rfl

/-- Window 3's array: rows 128 … 255 of the update weight. -/
theorem entry_node_v40 (c : Dev nD) : V3 m ρ c main_v40
    = truncf (F := Ideal) .bf16 (extractStridedSlice S128x128 ![128, 0] (m ((c : Thread nD τ).loc main_arg7) : FVec Ideal S256x128 .f32)
        slices_S256x128_S128x128_128_0) bitsLt_bf16_f32 := by
  rw [← exit_arg7 m ρ c]
  show StableHlo.after hostOps1 (W2 m ρ c) (Proc.devRef .tc main_v40) = _
  after_results_simp <;> rfl

/-- Window 4's array: the first update bias as a [1, 128] row. -/
theorem entry_node_v42 (c : Dev nD) : V3 m ρ c main_v42
    = shapeCast S1x128 (m ((c : Thread nD τ).loc main_arg8)) shapeCasts_S128_S1x128 := by
  rw [← exit_arg8 m ρ c]
  show StableHlo.after hostOps1 (W2 m ρ c) (Proc.devRef .tc main_v42) = _
  after_results_simp <;> rfl

/-- Window 5's array: the second update weight. -/
theorem entry_node_v41 (c : Dev nD) : V3 m ρ c main_v41
    = truncf (F := Ideal) .bf16 (m ((c : Thread nD τ).loc main_arg9) : FVec Ideal S128x128 .f32) bitsLt_bf16_f32 := by
  rw [← exit_arg9 m ρ c]
  show StableHlo.after hostOps1 (W2 m ρ c) (Proc.devRef .tc main_v41) = _
  after_results_simp <;> rfl

/-- Window 6's array: the second update bias as a [1, 128] row. -/
theorem entry_node_v43 (c : Dev nD) : V3 m ρ c main_v43
    = shapeCast S1x128 (m ((c : Thread nD τ).loc main_arg10)) shapeCasts_S128_S1x128 := by
  rw [← exit_arg10 m ρ c]
  show StableHlo.after hostOps1 (W2 m ρ c) (Proc.devRef .tc main_v43) = _
  after_results_simp <;> rfl

end Cert.KernelIdeal.Hand

end
-- ==== Proof.LibGatherRows.lean ====
/-
  `stablehlo.gather` of whole rows of a matrix, read at an index.

  What `x[idx]` of a table `x : [N, C]` at an integer vector `idx : [E]` lowers to, the vector carried as an
  `[E, 1]` array of start indices: offset axes `[1]`, collapsed axes `[0]`, start index map `[0]`, the index vector on
  axis 1, slice sizes `[1, C]`. Result element `(e, k)` is the table's element `(r, k)`, the row `r` being the start
  word `idx[e, 0]` read as a signed integer and clamped into `[0, N - 1]`: a negative word reads row 0, a word past
  the table its last row.
-/
import Idealize.ShloMosaic.Lib.ValueIdx

noncomputable section

namespace Idealize.ShloMosaic.ValueIdx

open Idealize.ShloMosaic

section Rows
variable {α : Type}

/-- Those dimension numbers for a table `[N, C]`, start indices `[E, 1]` and a result `[E, C]`; their conditions are
    decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start word names in a table of `N` rows: the word read signed, clamped into `[0, N - 1]`. -/
def clampRow (N : Nat) {w : Nat} (v : BitVec w) : Nat := min v.toInt.toNat (N - 1)

theorem clampRow_lt {N : Nat} (hN : 0 < N) {w : Nat} (v : BitVec w) : clampRow N v < N := by
  unfold clampRow; omega

/-- THE GATHER READ AT `(e, k)`: the table at row `clampRow N idx[e, 0]`, column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k)
      = x (ix2 ⟨clampRow N (idx (ix2 e (0 : Fin 1))), clampRow_lt hN _⟩ k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e k) idx 1 + (rowsDims N C E wf).batchCoord (ix2 e k) 1
      + (rowsDims N C E wf).offCoord (ix2 e k) 1 = k.val
    rw [GatherDims.batchCoord_eq_zero _ _ _ List.not_mem_nil]
    unfold GatherDims.start
    rw [dif_neg (show ¬ (1 : Fin 2) ∈ (rowsDims N C E wf).startIndexMap from
      fun h => absurd (congrArg Fin.val (List.mem_singleton.mp h)) Nat.one_ne_zero)]
    simp only [Nat.add_zero, Nat.zero_add]
    unfold GatherDims.offCoord
    rw [dif_pos (show (1 : Fin 2) ∈ (rowsDims N C E wf).sKept from (GatherDims.mem_sKept _ _).mpr
      ⟨fun h => absurd (congrArg Fin.val (List.mem_singleton.mp h)) Nat.one_ne_zero, List.not_mem_nil⟩)]
    rfl

end Rows

end Idealize.ShloMosaic.ValueIdx

end
-- ==== Proof.LibSplitSum.lean ====
/-
  A sum over consecutive indices splits into consecutive stretches.

  The reference contracts the concatenation of three (or two) pieces against the whole first weight (or the whole
  update weight); the kernel contracts each piece against its own block of the weight and adds. The two agree because
  a sum over `Fin 288` is the sum over its first 128 indices plus the sum over the next 128 plus the sum over the
  last 32, and a sum over `Fin 256` the sum over its two halves — in any additive commutative monoid, the extended
  reals included: only the order and grouping of the terms change.
-/
import Mathlib.Algebra.BigOperators.Fin

namespace Cert.Split

/-- `Fin (a + b)` summed as its first `a` indices and its last `b`. -/
theorem sum_two {M : Type*} [AddCommMonoid M] (a b n : ℕ) (h : a + b = n) (f : Fin n → M) :
    ∑ q : Fin n, f q
      = (∑ k : Fin a, f ⟨k.val, by omega⟩) + ∑ k : Fin b, f ⟨a + k.val, by omega⟩ := by
  subst h
  rw [Fin.sum_univ_add]
  rfl

/-- `Fin (a + b + c)` summed as three consecutive stretches, the third starting at `ab = a + b`. -/
theorem sum_three {M : Type*} [AddCommMonoid M] (a b c ab n : ℕ) (hab : a + b = ab) (h : ab + c = n) (f : Fin n → M) :
    ∑ q : Fin n, f q
      = ((∑ k : Fin a, f ⟨k.val, by omega⟩) + ∑ k : Fin b, f ⟨a + k.val, by omega⟩)
        + ∑ k : Fin c, f ⟨ab + k.val, by omega⟩ := by
  subst hab
  rw [sum_two (a + b) c n h f, sum_two a b (a + b) rfl fun q => f ⟨q.val, by omega⟩]

end Cert.Split
-- ==== Proof.RefMessages.lean ====
/-
  The reference's messages read at an entry.

  The reference gathers the node features at the sources and at the targets, joins the two with the edge attributes
  into a [600000, 288] array, multiplies by the whole first weight, adds the first bias, rectifies, multiplies by the
  second weight and adds the second bias. Read at edge `e` and column `c`: a joined row is its three pieces laid end to
  end, so its product with the weight is the sum of each piece's product with the matching block of rows of the
  weight — the sum over 288 indices split into its three stretches. That is the edge row formula, with the gathered
  features times the first two blocks of the weight standing where the kernel has its gathered projections.
-/
import proofs.«115804_j85993835200698_2_alg».proof.Proof.Gen.ReferenceIdeal.Read
import proofs.«115804_j85993835200698_2_alg».proof.Proof.LibGatherRows
import proofs.«115804_j85993835200698_2_alg».proof.Proof.LibSplitSum
import proofs.«115804_j85993835200698_2_alg».proof.Proof.Mlp
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen Cert.ReferenceIdeal.Read
open Idealize.ShloMosaic Idealize.ShloMosaic.ValueIdx

/-- A bias vector as the [1, 128] row the row formulas read. -/
def biasRow (b : S128.Idx → EReal) : S1x128.Idx → EReal := fun i => b (ix1 (i 1))

/-- Rows `o … o + 127` of the first weight as a [128, 128] array. -/
def weightBlock (o : ℕ) (ho : o + 128 ≤ 288) (w : S288x128.Idx → EReal) : S128x128.Idx → EReal :=
  fun i => w (ix2 ⟨o + (i 0).val, by have h : (i 0).val < 128 := (i 0).isLt; omega⟩ (i 1))

/-- Rows 256 … 287 of the first weight as a [32, 128] array. -/
def weightTail (w : S288x128.Idx → EReal) : (⟨2, ![32, 128]⟩ : Shape).Idx → EReal :=
  fun i => w (ix2 ⟨256 + (i 0).val, by have h : (i 0).val < 32 := (i 0).isLt; omega⟩ (i 1))

/-- Gathered rows times a [128, 128] block: entry `(e, c)` is row `e` of `g` against column `c` of the block. -/
def rowsTimes (g : S600000x128.Idx → EReal) (w : S128x128.Idx → EReal) : S600000x128.Idx → EReal :=
  fun i => ∑ k : Fin 128, g (ix2 (i 0) k) * w (ix2 k (i 1))

variable (x : (⟨S50000x128, .f32⟩ : BufTy).Contents (Elt Ideal)) (ei : (⟨S2x600000, .i32⟩ : BufTy).Contents (Elt Ideal))
  (ea : (⟨S600000x32, .f32⟩ : BufTy).Contents (Elt Ideal)) (wm1 : (⟨S288x128, .f32⟩ : BufTy).Contents (Elt Ideal))
  (bm1 : (⟨S128, .f32⟩ : BufTy).Contents (Elt Ideal)) (wm2 : (⟨S128x128, .f32⟩ : BufTy).Contents (Elt Ideal))
  (bm2 : (⟨S128, .f32⟩ : BufTy).Contents (Elt Ideal))

/-! ## The joined row, piece by piece -/

theorem joined_src (e : Fin 600000) (k : Fin 128) :
    val_main_v18 (F := Ideal) x ei ea (ix2 e ⟨k.val, by omega⟩) = val_main_v10 (F := Ideal) x ei (ix2 e k) := by
  unfold val_main_v18
  exact concatenate_apply_piece (t := S600000x288) 1 [⟨S600000x128, val_main_v10 (F := Ideal) x ei⟩, ⟨S600000x128, val_main_v17 (F := Ideal) x ei⟩, ⟨S600000x32, ea⟩]
    concatenates_S600000x128_S600000x128_S600000x32_S600000x288_d1 (ix2 e ⟨k.val, by omega⟩) 0 (by show (0 : ℕ) < 3; omega) S600000x128
    (val_main_v10 (F := Ideal) x ei) rfl rfl 0 rfl (ix2 e k)
    (fun b hb => by match b with
      | ⟨0, _⟩ => rfl
      | ⟨1, _⟩ => exact absurd rfl hb)
    (by show 0 + k.val = k.val; omega)

theorem joined_dst (e : Fin 600000) (k : Fin 128) :
    val_main_v18 (F := Ideal) x ei ea (ix2 e ⟨128 + k.val, by omega⟩) = val_main_v17 (F := Ideal) x ei (ix2 e k) := by
  unfold val_main_v18
  exact concatenate_apply_piece (t := S600000x288) 1 [⟨S600000x128, val_main_v10 (F := Ideal) x ei⟩, ⟨S600000x128, val_main_v17 (F := Ideal) x ei⟩, ⟨S600000x32, ea⟩]
    concatenates_S600000x128_S600000x128_S600000x32_S600000x288_d1 (ix2 e ⟨128 + k.val, by omega⟩) 1 (by show (1 : ℕ) < 3; omega) S600000x128
    (val_main_v17 (F := Ideal) x ei) rfl rfl 128 rfl (ix2 e k)
    (fun b hb => by match b with
      | ⟨0, _⟩ => rfl
      | ⟨1, _⟩ => exact absurd rfl hb)
    rfl

theorem joined_attr (e : Fin 600000) (k : Fin 32) :
    val_main_v18 (F := Ideal) x ei ea (ix2 e ⟨256 + k.val, by omega⟩) = ea (ix2 e k) := by
  unfold val_main_v18
  exact concatenate_apply_piece (t := S600000x288) 1 [⟨S600000x128, val_main_v10 (F := Ideal) x ei⟩, ⟨S600000x128, val_main_v17 (F := Ideal) x ei⟩, ⟨S600000x32, ea⟩]
    concatenates_S600000x128_S600000x128_S600000x32_S600000x288_d1 (ix2 e ⟨256 + k.val, by omega⟩) 2 (by show (2 : ℕ) < 3; omega) S600000x32
    ea rfl rfl 256 rfl (ix2 e k)
    (fun b hb => by match b with
      | ⟨0, _⟩ => rfl
      | ⟨1, _⟩ => exact absurd rfl hb)
    rfl

/-! ## The hidden row and the message row -/

theorem lidx19 (e : Fin 600000) (k : Fin 128) (q : Fin 288) : lidx_main_v19 (ix2 e k) q = ix2 e q :=
  funext fun a => Fin.ext (by match a with | ⟨0, _⟩ => rfl | ⟨1, _⟩ => rfl)
theorem ridx19 (e : Fin 600000) (k : Fin 128) (q : Fin 288) : ridx_main_v19 (ix2 e k) q = ix2 q k :=
  funext fun a => Fin.ext (by match a with | ⟨0, _⟩ => rfl | ⟨1, _⟩ => rfl)
theorem lidx24 (e : Fin 600000) (c : Fin 128) (k : Fin 128) : lidx_main_v24 (ix2 e c) k = ix2 e k :=
  funext fun a => Fin.ext (by match a with | ⟨0, _⟩ => rfl | ⟨1, _⟩ => rfl)
theorem ridx24 (e : Fin 600000) (c : Fin 128) (k : Fin 128) : ridx_main_v24 (ix2 e c) k = ix2 k c :=
  funext fun a => Fin.ext (by match a with | ⟨0, _⟩ => rfl | ⟨1, _⟩ => rfl)

/-- The first bias broadcast over the edges reads the bias entry of its column. -/
theorem bias1_apply (e : Fin 600000) (k : Fin 128) : val_main_v21 (F := Ideal) bm1 (ix2 e k) = biasRow bm1 (ix2 (0 : Fin 1) k) := by
  rw [val_main_v21_apply, val_main_v20_apply]
  exact congrArg bm1 (funext fun a => Fin.ext (by match a with | ⟨0, _⟩ => rfl))

/-- The second bias broadcast over the edges reads the bias entry of its column. -/
theorem bias2_apply (e : Fin 600000) (c : Fin 128) : val_main_v26 (F := Ideal) bm2 (ix2 e c) = biasRow bm2 (ix2 (0 : Fin 1) c) := by
  rw [val_main_v26_apply, val_main_v25_apply]
  exact congrArg bm2 (funext fun a => Fin.ext (by match a with | ⟨0, _⟩ => rfl))

/-- The reference's hidden row is the edge hidden row of the gathered features times the weight's first two blocks,
    the edge attributes, the weight's last block and the bias row. -/
theorem hidden_apply (e : Fin 600000) (k : Fin 128) :
    val_main_v22 (F := Ideal) x ei ea wm1 bm1 (ix2 e k)
      = Cert.Mlp.edgeHidden (rowsTimes (val_main_v10 (F := Ideal) x ei) (weightBlock 0 (by omega) wm1))
          (rowsTimes (val_main_v17 (F := Ideal) x ei) (weightBlock 128 (by omega) wm1)) ea (weightTail wm1) (biasRow bm1) e k := by
  rw [val_main_v22_apply, val_main_v19_apply, bias1_apply]
  unfold Cert.Mlp.edgeHidden
  refine congrArg (· + biasRow bm1 (ix2 (0 : Fin 1) k)) ?_
  simp only [lidx19, ridx19]
  rw [Cert.Split.sum_three 128 128 32 256 288 rfl rfl]
  simp only [joined_src, joined_dst, joined_attr]
  rfl

/-- The rectifier's zero, broadcast over the edges, is the zero word. -/
theorem relu_zero_apply (i : S600000x128.Idx) : val_main_call0_v0 (F := Ideal) i = Cert.Mlp.zeroW := by
  rw [val_main_call0_v0_apply]; rfl

/-- THE REFERENCE'S MESSAGES at `(e, c)`: the edge row formula. -/
theorem messages_apply (e : Fin 600000) (c : Fin 128) :
    val_main_v27 (F := Ideal) x ei ea wm1 bm1 wm2 bm2 (ix2 e c)
      = Cert.Mlp.edgeRow (rowsTimes (val_main_v10 (F := Ideal) x ei) (weightBlock 0 (by omega) wm1))
          (rowsTimes (val_main_v17 (F := Ideal) x ei) (weightBlock 128 (by omega) wm1)) ea (weightTail wm1) (biasRow bm1)
          wm2 (biasRow bm2) e c := by
  rw [val_main_v27_apply, val_main_v24_apply, bias2_apply]
  unfold Cert.Mlp.edgeRow Cert.Mlp.outLayer
  refine congrArg (· + biasRow bm2 (ix2 (0 : Fin 1) c)) (Finset.sum_congr rfl fun k _ => ?_)
  rw [lidx24, ridx24, val_main_v23_apply, hidden_apply, relu_zero_apply]
  rfl

end Cert.ReferenceIdeal.Hand

end
-- ==== Proof.RefUpdate.lean ====
/-
  The reference's result read at an entry.

  The reference scatters its messages, accumulating, at the targets, joins the node features with the aggregated
  messages into a [50000, 256] array, multiplies by the whole update weight, adds the first update bias, rectifies,
  multiplies by the second update weight and adds the second update bias. Read at node `n` and column `c`: a joined
  row is its two pieces laid end to end, so its product with the weight is the sum of each piece's product with the
  matching half of the weight's rows — the sum over 256 indices split into its two halves. That is the node row
  formula of the features, the aggregated messages and the two halves of the update weight.
-/
import proofs.«115804_j85993835200698_2_alg».proof.Proof.Gen.ReferenceIdeal.Read
import proofs.«115804_j85993835200698_2_alg».proof.Proof.LibSplitSum
import proofs.«115804_j85993835200698_2_alg».proof.Proof.Mlp
import proofs.«115804_j85993835200698_2_alg».proof.Proof.RefMessages
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen Cert.ReferenceIdeal.Read
open Idealize.ShloMosaic Idealize.ShloMosaic.ValueIdx

/-- Rows `o … o + 127` of the update weight as a [128, 128] array. -/
def updateBlock (o : ℕ) (ho : o + 128 ≤ 256) (w : S256x128.Idx → EReal) : S128x128.Idx → EReal :=
  fun i => w (ix2 ⟨o + (i 0).val, by have h : (i 0).val < 128 := (i 0).isLt; omega⟩ (i 1))

variable (x : (⟨S50000x128, .f32⟩ : BufTy).Contents (Elt Ideal)) (ei : (⟨S2x600000, .i32⟩ : BufTy).Contents (Elt Ideal))
  (ea : (⟨S600000x32, .f32⟩ : BufTy).Contents (Elt Ideal)) (wm1 : (⟨S288x128, .f32⟩ : BufTy).Contents (Elt Ideal))
  (bm1 : (⟨S128, .f32⟩ : BufTy).Contents (Elt Ideal)) (wm2 : (⟨S128x128, .f32⟩ : BufTy).Contents (Elt Ideal))
  (bm2 : (⟨S128, .f32⟩ : BufTy).Contents (Elt Ideal)) (wu1 : (⟨S256x128, .f32⟩ : BufTy).Contents (Elt Ideal))
  (bu1 : (⟨S128, .f32⟩ : BufTy).Contents (Elt Ideal)) (wu2 : (⟨S128x128, .f32⟩ : BufTy).Contents (Elt Ideal))
  (bu2 : (⟨S128, .f32⟩ : BufTy).Contents (Elt Ideal))

/-! ## The joined row, piece by piece -/

theorem joined_feat (n : Fin 50000) (k : Fin 128) :
    val_main_v31 (F := Ideal) x ei ea wm1 bm1 wm2 bm2 (ix2 n ⟨k.val, by omega⟩) = x (ix2 n k) := by
  unfold val_main_v31
  exact concatenate_apply_piece (t := S50000x256) 1 [⟨S50000x128, x⟩, ⟨S50000x128, val_main_v30 (F := Ideal) x ei ea wm1 bm1 wm2 bm2⟩]
    concatenates_S50000x128_S50000x128_S50000x256_d1 (ix2 n ⟨k.val, by omega⟩) 0 (by show (0 : ℕ) < 2; omega) S50000x128
    x rfl rfl 0 rfl (ix2 n k)
    (fun b hb => by match b with
      | ⟨0, _⟩ => rfl
      | ⟨1, _⟩ => exact absurd rfl hb)
    (by show 0 + k.val = k.val; omega)

theorem joined_aggr (n : Fin 50000) (k : Fin 128) :
    val_main_v31 (F := Ideal) x ei ea wm1 bm1 wm2 bm2 (ix2 n ⟨128 + k.val, by omega⟩)
      = val_main_v30 (F := Ideal) x ei ea wm1 bm1 wm2 bm2 (ix2 n k) := by
  unfold val_main_v31
  exact concatenate_apply_piece (t := S50000x256) 1 [⟨S50000x128, x⟩, ⟨S50000x128, val_main_v30 (F := Ideal) x ei ea wm1 bm1 wm2 bm2⟩]
    concatenates_S50000x128_S50000x128_S50000x256_d1 (ix2 n ⟨128 + k.val, by omega⟩) 1 (by show (1 : ℕ) < 2; omega) S50000x128
    (val_main_v30 (F := Ideal) x ei ea wm1 bm1 wm2 bm2) rfl rfl 128 rfl (ix2 n k)
    (fun b hb => by match b with
      | ⟨0, _⟩ => rfl
      | ⟨1, _⟩ => exact absurd rfl hb)
    rfl

/-! ## The hidden row and the output row -/

theorem lidx32 (n : Fin 50000) (k : Fin 128) (q : Fin 256) : lidx_main_v32 (ix2 n k) q = ix2 n q :=
  funext fun a => Fin.ext (by match a with | ⟨0, _⟩ => rfl | ⟨1, _⟩ => rfl)
theorem ridx32 (n : Fin 50000) (k : Fin 128) (q : Fin 256) : ridx_main_v32 (ix2 n k) q = ix2 q k :=
  funext fun a => Fin.ext (by match a with | ⟨0, _⟩ => rfl | ⟨1, _⟩ => rfl)
theorem lidx37 (n : Fin 50000) (c : Fin 128) (k : Fin 128) : lidx_main_v37 (ix2 n c) k = ix2 n k :=
  funext fun a => Fin.ext (by match a with | ⟨0, _⟩ => rfl | ⟨1, _⟩ => rfl)
theorem ridx37 (n : Fin 50000) (c : Fin 128) (k : Fin 128) : ridx_main_v37 (ix2 n c) k = ix2 k c :=
  funext fun a => Fin.ext (by match a with | ⟨0, _⟩ => rfl | ⟨1, _⟩ => rfl)

/-- The first update bias broadcast over the nodes reads the bias entry of its column. -/
theorem ubias1_apply (n : Fin 50000) (k : Fin 128) : val_main_v34 (F := Ideal) bu1 (ix2 n k) = biasRow bu1 (ix2 (0 : Fin 1) k) := by
  rw [val_main_v34_apply, val_main_v33_apply]
  exact congrArg bu1 (funext fun a => Fin.ext (by match a with | ⟨0, _⟩ => rfl))

/-- The second update bias broadcast over the nodes reads the bias entry of its column. -/
theorem ubias2_apply (n : Fin 50000) (c : Fin 128) : val_main_v39 (F := Ideal) bu2 (ix2 n c) = biasRow bu2 (ix2 (0 : Fin 1) c) := by
  rw [val_main_v39_apply, val_main_v38_apply]
  exact congrArg bu2 (funext fun a => Fin.ext (by match a with | ⟨0, _⟩ => rfl))

/-- The reference's hidden row is the node hidden row of the features, the aggregated messages and the two halves
    of the update weight. -/
theorem uhidden_apply (n : Fin 50000) (k : Fin 128) :
    val_main_v35 (F := Ideal) x ei ea wm1 bm1 wm2 bm2 wu1 bu1 (ix2 n k)
      = Cert.Mlp.nodeHidden x (val_main_v30 (F := Ideal) x ei ea wm1 bm1 wm2 bm2) (updateBlock 0 (by omega) wu1)
          (updateBlock 128 (by omega) wu1) (biasRow bu1) n k := by
  rw [val_main_v35_apply, val_main_v32_apply, ubias1_apply]
  unfold Cert.Mlp.nodeHidden
  refine congrArg (· + biasRow bu1 (ix2 (0 : Fin 1) k)) ?_
  simp only [lidx32, ridx32]
  rw [Cert.Split.sum_two 128 128 256 rfl]
  simp only [joined_feat, joined_aggr]
  rfl

/-- The rectifier's zero, broadcast over the nodes, is the zero word. -/
theorem urelu_zero_apply (i : S50000x128.Idx) : val_main_call1_v0 (F := Ideal) i = Cert.Mlp.zeroW := by
  rw [val_main_call1_v0_apply]; rfl

/-- THE REFERENCE'S RESULT at `(n, c)`: the node row formula. -/
theorem result_apply (n : Fin 50000) (c : Fin 128) :
    val_main_v40 (F := Ideal) x ei ea wm1 bm1 wm2 bm2 wu1 bu1 wu2 bu2 (ix2 n c)
      = Cert.Mlp.nodeRow x (val_main_v30 (F := Ideal) x ei ea wm1 bm1 wm2 bm2) (updateBlock 0 (by omega) wu1)
          (updateBlock 128 (by omega) wu1) (biasRow bu1) wu2 (biasRow bu2) n c := by
  rw [val_main_v40_apply, val_main_v37_apply, ubias2_apply]
  unfold Cert.Mlp.nodeRow Cert.Mlp.outLayer
  refine congrArg (· + biasRow bu2 (ix2 (0 : Fin 1) c)) (Finset.sum_congr rfl fun k _ => ?_)
  rw [lidx37, ridx37, val_main_v36_apply, uhidden_apply, urelu_zero_apply]
  rfl

end Cert.ReferenceIdeal.Hand

end
-- ==== Proof.Bridge.lean ====
/-
  The reference's result is the kernel's.

  Three steps. (1) The messages: at edge `e` the reference multiplies the gathered features by the first two blocks of
  the first weight, the kernel gathers the features already multiplied; a row gather and a product from the right
  commute — both read row `r` of the features against column `k` of the block, `r` the same clamped start index on both
  sides — so the two hidden rows agree entry by entry, and with them the message rows. (2) The aggregated messages:
  both sides apply the same accumulating scatter, from the same zero array at the same target indices, to equal
  message arrays. (3) The result: the node row formula of the same features, equal aggregated messages, and the
  update weight's two halves read either as slices or by row offset.
-/
import proofs.«115804_j85993835200698_2_alg».proof.Proof.HostBetween
import proofs.«115804_j85993835200698_2_alg».proof.Proof.NodeRegion
import proofs.«115804_j85993835200698_2_alg».proof.Proof.RefMessages
import proofs.«115804_j85993835200698_2_alg».proof.Proof.RefUpdate
import proofs.«115804_j85993835200698_2_alg».proof.Proof.LibGatherRows
import proofs.«115804_j85993835200698_2_alg».proof.Proof.Products
import proofs.«115804_j85993835200698_2_alg».proof.Proof.Mlp
import Idealize.ShloMosaic.Lib.ValueIdx
import Idealize.ShloMosaic.Lib.ValueLayout

set_option maxRecDepth 16384
set_option maxHeartbeats 1000000

noncomputable section

namespace Cert.Bridge

open Cert.KernelIdeal Cert.KernelIdeal.Gen Cert.KernelIdeal.Hand
open Idealize.ShloMosaic Idealize.ShloMosaic.TcCoe Idealize.ShloMosaic.ValueIdx Idealize.SL.Sem

/-- A projection gathered at start indices, at `(e, k)`: the features' row the start index clamps to, against column
    `k` of the block. -/
theorem gathered_proj_apply (x : FVec Ideal S50000x128 .f32) (w : FVec Ideal S128x128 .f32)
    (idx : S600000x1.Idx → BitVec 32) (e : Fin 600000) (k : Fin 128) :
    Host.gather gather_S50000x128_S600000x1_S600000x128_1_0_n_n_0_1_1128 (proj x w) idx (ix2 e k)
      = ∑ k' : Fin 128, x (ix2 ⟨clampRow 50000 (idx (ix2 e (0 : Fin 1))), clampRow_lt (by decide) _⟩ k') * w (ix2 k' k) :=
  (gather_rows_apply (N := 50000) (C := 128) (E := 600000) (by decide)
      gather_S50000x128_S600000x1_S600000x128_1_0_n_n_0_1_1128.wf (proj x w) idx e k).trans
    (proj_dot (truncf (F := Ideal) .bf16 x bitsLt_bf16_f32) (truncf (F := Ideal) .bf16 w bitsLt_bf16_f32) _ k)

/-- The reference's gathered features at `(e, k)`: the features' row the start index clamps to. -/
theorem gathered_feat_apply (x : Cert.ReferenceIdeal.S50000x128.Idx → EReal)
    (idx : Cert.ReferenceIdeal.S600000x1.Idx → BitVec 32) (e : Fin 600000) (k : Fin 128) :
    Host.gather Cert.ReferenceIdeal.gather_S50000x128_S600000x1_S600000x128_1_0_n_n_0_1_1128 x idx (ix2 e k)
      = x (ix2 ⟨clampRow 50000 (idx (ix2 e (0 : Fin 1))), clampRow_lt (by decide) _⟩ k) :=
  gather_rows_apply (N := 50000) (C := 128) (E := 600000) (by decide)
    Cert.ReferenceIdeal.gather_S50000x128_S600000x1_S600000x128_1_0_n_n_0_1_1128.wf x idx e k

variable (m : (ℓ : Loc nD τ sig) → Buf (Elt Ideal) ℓ) (ρ : Dev nD → PrngReg)

/-- STEP 1: the reference's messages are the edge pipeline's output array. -/
theorem messages_eq (c : Dev nD) :
    Cert.ReferenceIdeal.Read.val_main_v27 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))
    = edgeArr (V1 m ρ) c := by
  funext i
  obtain ⟨e, j, rfl⟩ : ∃ (e : Fin 600000) (j : Fin 128), i = ix2 e j := ⟨i 0, i 1, eq_ix2 i⟩
  rw [Cert.ReferenceIdeal.Hand.messages_apply]
  show _ = Cert.Mlp.edgeRow (V1 m ρ c main_v24) (V1 m ρ c main_v31) (V1 m ρ c main_v32) (V1 m ρ c main_v10)
    (V1 m ρ c main_v12) (V1 m ρ c main_v11) (V1 m ρ c main_v13) e j
  rw [entry_v24, entry_v31, entry_v32, entry_v10, entry_v12, entry_v11, entry_v13]
  refine Cert.Mlp.edgeRow_congr rfl (fun k => ?_) (fun k => ?_) (fun k => rfl) (fun k d => ?_) (fun d => ?_)
    (fun k d => rfl) (fun d => ?_)
  · refine Eq.trans ?_ (gathered_proj_apply _ _ _ e k).symm
    refine Finset.sum_congr rfl fun k' _ => ?_
    refine congrArg₂ (· * ·) (gathered_feat_apply _ _ e k') ?_
    exact (slice2_axis0_eq 0 (m ((c : Thread nD τ).loc main_arg3) : FVec Ideal S288x128 .f32) slices_S288x128_S128x128_0_0 k' k).symm
  · refine Eq.trans ?_ (gathered_proj_apply _ _ _ e k).symm
    refine Finset.sum_congr rfl fun k' _ => ?_
    refine congrArg₂ (· * ·) (gathered_feat_apply _ _ e k') ?_
    exact (slice2_axis0_eq 128 (m ((c : Thread nD τ).loc main_arg3) : FVec Ideal S288x128 .f32) slices_S288x128_S128x128_128_0 k' k).symm
  · exact (slice2_axis0_eq 256 (m ((c : Thread nD τ).loc main_arg3) : FVec Ideal S288x128 .f32) slices_S288x128_S32x128_256_0 k d).symm
  · exact (shapeCast_a_1a_apply (m ((c : Thread nD τ).loc main_arg4) : S128.Idx → EReal) shapeCasts_S128_S1x128 (0 : Fin 1) d).symm
  · exact (shapeCast_a_1a_apply (m ((c : Thread nD τ).loc main_arg6) : S128.Idx → EReal) shapeCasts_S128_S1x128 (0 : Fin 1) d).symm

/-- STEP 2: the reference's aggregated messages are the node pipeline's second entry array. -/
theorem aggregated_eq (c : Dev nD) :
    Cert.ReferenceIdeal.Read.val_main_v30 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))
    = aggregate (m ((c : Thread nD τ).loc main_arg1)) (edgeArr (V1 m ρ) c) := by
  unfold Cert.ReferenceIdeal.Read.val_main_v30
  rw [messages_eq m ρ c]
  rfl

/-- STEP 3: the reference's result is the node pipeline's output array. -/
theorem result_eq (c : Dev nD) :
    Cert.ReferenceIdeal.Read.val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
    = nodeArr (V3 m ρ) c := by
  funext i
  obtain ⟨n, j, rfl⟩ : ∃ (n : Fin 50000) (j : Fin 128), i = ix2 n j := ⟨i 0, i 1, eq_ix2 i⟩
  rw [Cert.ReferenceIdeal.Hand.result_apply, aggregated_eq m ρ c]
  show _ = Cert.Mlp.nodeRow (V3 m ρ c main_v4) (V3 m ρ c main_v36) (V3 m ρ c main_v38) (V3 m ρ c main_v40)
    (V3 m ρ c main_v42) (V3 m ρ c main_v41) (V3 m ρ c main_v43) n j
  rw [entry_node_v4, entry_node_v36, entry_node_v38, entry_node_v40, entry_node_v42, entry_node_v41, entry_node_v43]
  refine Cert.Mlp.nodeRow_congr rfl (fun k => rfl) (fun k => rfl) (fun k d => ?_) (fun k d => ?_) (fun d => ?_)
    (fun k d => rfl) (fun d => ?_)
  · exact (slice2_axis0_eq 0 (m ((c : Thread nD τ).loc main_arg7) : FVec Ideal S256x128 .f32) slices_S256x128_S128x128_0_0 k d).symm
  · exact (slice2_axis0_eq 128 (m ((c : Thread nD τ).loc main_arg7) : FVec Ideal S256x128 .f32) slices_S256x128_S128x128_128_0 k d).symm
  · exact (shapeCast_a_1a_apply (m ((c : Thread nD τ).loc main_arg8) : S128.Idx → EReal) shapeCasts_S128_S1x128 (0 : Fin 1) d).symm
  · exact (shapeCast_a_1a_apply (m ((c : Thread nD τ).loc main_arg10) : S128.Idx → EReal) shapeCasts_S128_S1x128 (0 : Fin 1) d).symm

end Cert.Bridge

end
-- ==== Proof.lean ====
/- The proof of `Cert.Claim` for a message-passing layer: gather the endpoints' features, an edge MLP, an accumulating
   scatter to the target nodes, a node MLP.

   The kernel projects the node features through the first two [128, 128] blocks of the first weight once per node,
   gathers the projections at each edge's endpoints, and runs the edge MLP as a pipelined kernel over blocks of 8000
   edges with the edge attributes times the weight's last block added; the host scatters the messages; the node MLP
   is a second pipelined kernel over blocks of 5000 nodes, the update weight split into its two halves. The reference
   gathers the features, joins them with the edge attributes, and multiplies by the whole weight; likewise for the
   update. At the exact instance a change of float format is the identity and every product is the plain sum, so the
   two programs compute one function: a row gather commutes with a product from the right (both read the same row of
   the features), and the product of a joined row with a weight is the sum of the pieces' products with the matching
   blocks of the weight's rows — a finite sum regrouped, which holds on the extended reals as it stands. The
   precondition is not used by the value claim.

   Modules: Mlp (the two row formulas and their congruence), LibSplitSum (a sum over consecutive stretches), Products (the
   kernel's matrix products at an entry), Payloads (what each body stores), EdgeRegion and NodeRegion (each pipeline's
   output array as a function of its entry arrays), HostBefore and HostBetween (the entry arrays from the launch
   arguments), KernelRun (the run with the result named), RefMessages and RefUpdate (the reference read at an entry),
   Bridge (the reference's result is the kernel's). The three frames: the two kernels' are generated whole, the
   reference's is its generated run with the result dropped. -/
import proofs.«115804_j85993835200698_2_alg».proof.Defs
import proofs.«115804_j85993835200698_2_alg».proof.Proof.Gen.Kernel
import proofs.«115804_j85993835200698_2_alg».proof.Proof.Gen.Kernel.Skeleton
import proofs.«115804_j85993835200698_2_alg».proof.Proof.Gen.Kernel.Launch
import proofs.«115804_j85993835200698_2_alg».proof.Proof.Gen.Kernel.Points
import proofs.«115804_j85993835200698_2_alg».proof.Proof.Gen.Kernel.Frame
import proofs.«115804_j85993835200698_2_alg».proof.Proof.Gen.KernelIdeal
import proofs.«115804_j85993835200698_2_alg».proof.Proof.Gen.KernelIdeal.Skeleton
import proofs.«115804_j85993835200698_2_alg».proof.Proof.Gen.KernelIdeal.Launch
import proofs.«115804_j85993835200698_2_alg».proof.Proof.Gen.KernelIdeal.Points
import proofs.«115804_j85993835200698_2_alg».proof.Proof.Gen.KernelIdeal.Frame
import proofs.«115804_j85993835200698_2_alg».proof.Proof.Gen.ReferenceIdeal
import proofs.«115804_j85993835200698_2_alg».proof.Proof.Gen.Pre_finite_inputs
import proofs.«115804_j85993835200698_2_alg».proof.Proof.Gen.ReferenceIdeal.Run
import proofs.«115804_j85993835200698_2_alg».proof.Proof.Gen.ReferenceIdeal.Read
import proofs.«115804_j85993835200698_2_alg».proof.Proof.KernelRun
import proofs.«115804_j85993835200698_2_alg».proof.Proof.NodeRegion
import proofs.«115804_j85993835200698_2_alg».proof.Proof.Bridge
import Idealize.ShloMosaic.Adequacy
import Idealize.ShloMosaic.Init

set_option maxRecDepth 16384

noncomputable section

namespace Cert.Proof

open Idealize.ShloMosaic Idealize.SL.Sem

/-- The word-level kernel's frame: generated whole. -/
theorem frame_kernel : Cert.frame_Kernel := fun m ρ _ => Cert.Kernel.Gen.frame m ρ

/-- The idealized kernel's frame: generated whole. -/
theorem frame_kernelIdeal : Cert.frame_KernelIdeal := fun m ρ _ => Cert.KernelIdeal.Gen.frame m ρ

/-- The reference's frame: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the exact instance. -/
theorem preserves : Cert.preserves_Kernel_KernelIdeal := trivial

/-- Both programs end with the node pipeline's output array of the kernel's run: the kernel by its run with the
    result named and the node pipeline's closed form, the reference by its generated run, the arguments' agreement,
    and the bridge. -/
theorem algebraic : Cert.algebraic_KernelIdeal_ReferenceIdeal := by
  intro m ρ m' ρ' _ hagree
  refine ⟨fun c => Cert.KernelIdeal.Hand.nodeArr (Cert.KernelIdeal.Gen.V3 m ρ) c, ?_, ?_⟩
  · exact (θ_run Cert.KernelIdeal.defs _ _).mono
      (fun r h c => ⟨(h c).1.trans ((Cert.KernelIdeal.Hand.W4_result m ρ c).trans
        (Cert.KernelIdeal.Hand.node_array (Cert.KernelIdeal.Gen.V3 m ρ) c)), (h c).2⟩)
      (Cert.KernelIdeal.Hand.run_named (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10⟩ := hagree c
    rw [(h c).1, Cert.ReferenceIdeal.Read.val_main_v40_eq, a0, a1, a2, a3, a4, a5, a6, a7, a8, a9, a10]
    exact Cert.Bridge.result_eq m ρ c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
